-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x160000 : Shape := ⟨2, ![2, 160000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S256x128 .f32) (main_arg10 : FVec F S128 .f32) (main_arg11 : FVec F S128x2 .f32) (main_arg12 : FVec F S2 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S256x256 .f32) (main_arg7 : FVec F S256x256 .f32) (main_arg8 : FVec F S256 .f32) (main_arg9 : FVec F S256x128 .f32) (main_arg10 : FVec F S128 .f32) (main_arg11 : FVec F S128x2 .f32) (main_arg12 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S20000x512 .f32) (main_arg1 : IVec S2x160000 32) (main_arg2 : IVec S20000 32) (main_arg3 : FVec F S512x256 .f32) (main_arg4 : FVec F S512x256 .f32) (main_arg5 : FVec F S256 .f32) (main_arg6 : FVec F S256x256 .f32) (main_arg7 : FVec F S256x256 .f32) (main_arg8 : FVec F S256 .f32) (main_arg9 : FVec F S256x128 .f32) (main_arg10 : FVec F S128 .f32) (main_arg11 : FVec F S128x2 .f32) (main_arg12 : FVec F S2 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_arg12 main_v13 main_v16
-- ==== Kernel.lean ====
abbrev S20000x512 : Shape := ⟨2, ![20000, 512]⟩
abbrev S2x160000 : Shape := ⟨2, ![2, 160000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S20000x1 : Shape := ⟨2, ![20000, 1]⟩
abbrev S1x256 : Shape := ⟨2, ![1, 256]⟩
abbrev S20000x256 : Shape := ⟨2, ![20000, 256]⟩
abbrev S2000x512 : Shape := ⟨2, ![2000, 512]⟩
abbrev S2000x256 : Shape := ⟨2, ![2000, 256]⟩
abbrev S160000x256 : Shape := ⟨2, ![160000, 256]⟩
abbrev S16 : Shape := ⟨1, ![16]⟩
abbrev S16x256 : Shape := ⟨2, ![16, 256]⟩
abbrev S16x1 : Shape := ⟨2, ![16, 1]⟩
abbrev S16x128 : Shape := ⟨2, ![16, 128]⟩
abbrev S1x128 : Shape := ⟨2, ![1, 128]⟩
abbrev S16x2 : Shape := ⟨2, ![16, 2]⟩
abbrev S1x2 : Shape := ⟨2, ![1, 2]⟩

abbrev nBuf : Space → Nat
  | .hbm => 95
  | .vmem => 18
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S20000, .i32⟩
  | .hbm, ⟨3, _⟩ => ⟨S512x256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .f32⟩
  | .hbm, ⟨18, _⟩ => ⟨S160000, .f32⟩
  | .hbm, ⟨19, _⟩ => ⟨S_, .f32⟩
  | .hbm, ⟨20, _⟩ => ⟨S20000, .f32⟩
  | .hbm, ⟨21, _⟩ => ⟨S160000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .f32⟩
  | .hbm, ⟨27, _⟩ => ⟨S20000, .f32⟩
  | .hbm, ⟨28, _⟩ => ⟨S20000, .f32⟩
  | .hbm, ⟨29, _⟩ => ⟨S_, .i32⟩
  | .hbm, ⟨30, _⟩ => ⟨S160000, .i32⟩
  | .hbm, ⟨31, _⟩ => ⟨S160000, .i1⟩
  | .hbm, ⟨32, _⟩ => ⟨S_, .i32⟩
  | .hbm, ⟨33, _⟩ => ⟨S160000, .i32⟩
  | .hbm, ⟨34, _⟩ => ⟨S160000, .i32⟩
  | .hbm, ⟨35, _⟩ => ⟨S160000, .i32⟩
  | .hbm, ⟨36, _⟩ => ⟨S160000x1, .i32⟩
  | .hbm, ⟨37, _⟩ => ⟨S160000x512, .f32⟩
  | .hbm, ⟨38, _⟩ => ⟨S_, .f32⟩
  | .hbm, ⟨39, _⟩ => ⟨S20000x512, .f32⟩
  | .hbm, ⟨40, _⟩ => ⟨S160000x1, .i32⟩
  | .hbm, ⟨41, _⟩ => ⟨S20000x512, .f32⟩
  | .hbm, ⟨42, _⟩ => ⟨S20000x1, .f32⟩
  | .hbm, ⟨43, _⟩ => ⟨S20000x512, .f32⟩
  | .hbm, ⟨44, _⟩ => ⟨S20000x512, .f32⟩
  | .hbm, ⟨45, _⟩ => ⟨S1x256, .f32⟩
  | .hbm, ⟨46, _⟩ => ⟨S20000x256, .f32⟩
  | .hbm, ⟨47, _⟩ => ⟨S_, .i32⟩
  | .hbm, ⟨48, _⟩ => ⟨S160000, .i32⟩
  | .hbm, ⟨49, _⟩ => ⟨S160000, .i1⟩
  | .hbm, ⟨50, _⟩ => ⟨S_, .i32⟩
  | .hbm, ⟨51, _⟩ => ⟨S160000, .i32⟩
  | .hbm, ⟨52, _⟩ => ⟨S160000, .i32⟩
  | .hbm, ⟨53, _⟩ => ⟨S160000, .i32⟩
  | .hbm, ⟨54, _⟩ => ⟨S160000x1, .i32⟩
  | .hbm, ⟨55, _⟩ => ⟨S160000x256, .f32⟩
  | .hbm, ⟨56, _⟩ => ⟨S_, .f32⟩
  | .hbm, ⟨57, _⟩ => ⟨S20000x256, .f32⟩
  | .hbm, ⟨58, _⟩ => ⟨S160000x1, .i32⟩
  | .hbm, ⟨59, _⟩ => ⟨S20000x256, .f32⟩
  | .hbm, ⟨60, _⟩ => ⟨S20000x1, .f32⟩
  | .hbm, ⟨61, _⟩ => ⟨S20000x256, .f32⟩
  | .hbm, ⟨62, _⟩ => ⟨S20000x256, .f32⟩
  | .hbm, ⟨63, _⟩ => ⟨S1x256, .f32⟩
  | .hbm, ⟨64, _⟩ => ⟨S20000x256, .f32⟩
  | .hbm, ⟨65, _⟩ => ⟨S_, .f32⟩
  | .hbm, ⟨66, _⟩ => ⟨S20000, .f32⟩
  | .hbm, ⟨67, _⟩ => ⟨S_, .f32⟩
  | .hbm, ⟨68, _⟩ => ⟨S16, .f32⟩
  | .hbm, ⟨69, _⟩ => ⟨S20000x1, .i32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S_, .f32⟩
  | .hbm, ⟨75, _⟩ => ⟨S16, .f32⟩
  | .hbm, ⟨76, _⟩ => ⟨S16, .f32⟩
  | .hbm, ⟨77, _⟩ => ⟨S_, .f32⟩
  | .hbm, ⟨78, _⟩ => ⟨S16x256, .f32⟩
  | .hbm, ⟨79, _⟩ => ⟨S20000x1, .i32⟩
  | .hbm, ⟨80, _⟩ => ⟨S16x256, .f32⟩
  | .hbm, ⟨81, _⟩ => ⟨S16x1, .f32⟩
  | .hbm, ⟨82, _⟩ => ⟨S16x256, .f32⟩
  | .hbm, ⟨83, _⟩ => ⟨S16x256, .f32⟩
  | .hbm, ⟨84, _⟩ => ⟨S16x128, .f32⟩
  | .hbm, ⟨85, _⟩ => ⟨S1x128, .f32⟩
  | .hbm, ⟨86, _⟩ => ⟨S16x128, .f32⟩
  | .hbm, ⟨87, _⟩ => ⟨S16x128, .f32⟩
  | .hbm, ⟨88, _⟩ => ⟨S_, .f32⟩
  | .hbm, ⟨89, _⟩ => ⟨S16x128, .f32⟩
  | .hbm, ⟨90, _⟩ => ⟨S16x128, .f32⟩
  | .hbm, ⟨91, _⟩ => ⟨S16x2, .f32⟩
  | .hbm, ⟨92, _⟩ => ⟨S1x2, .f32⟩
  | .hbm, ⟨93, _⟩ => ⟨S16x2, .f32⟩
  | .hbm, ⟨94, _⟩ => ⟨S16x2, .f32⟩
  | .local _ .vmem, ⟨0, _⟩ => ⟨S2000x512, .f32⟩
  | .local _ .vmem, ⟨1, _⟩ => ⟨S2000x512, .f32⟩
  | .local _ .vmem, ⟨2, _⟩ => ⟨S2000x512, .f32⟩
  | .local _ .vmem, ⟨3, _⟩ => ⟨S2000x512, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_cst_11 : Ref sig .tc := ⟨.hbm, 74, rfl⟩
abbrev main_v48 : Ref sig .tc := ⟨.hbm, 75, rfl⟩
abbrev main_v49 : Ref sig .tc := ⟨.hbm, 76, rfl⟩
abbrev main_cst_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_call0_cst : Ref sig .tc := ⟨.hbm, 88, rfl⟩
abbrev main_call0_v0 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  shapeCasts_S256_S1x256 : S256.ShapeCasts S1x256
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  bcast_S_S16 : S_.BroadcastsInDim S16 (![] : Fin 0 → Fin S16.rank)
  bcast_S_S16x256 : S_.BroadcastsInDim S16x256 (![] : Fin 0 → Fin S16x256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  scatter_S20000_S160000x1_S160000_n_0_0_1_wf : ScatterDims.WF S20000 S160000x1 S160000 [] [0] [0] 1
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S2000x512_S512x256_S2000x256_1_0_0_1_n_n_wf : DotDims.WF S2000x512 S512x256 S2000x256 [1] [0] [0] [1] [] []
  gather_S20000x256_S160000x1_S160000x256_1_0_n_n_0_1_1256_wf : GatherDims.WF S20000x256 S160000x1 S160000x256 [1] [0] [] [0] [] 1 ![1, 256]
  scatter_S20000x256_S160000x1_S160000x256_1_0_0_1_wf : ScatterDims.WF S20000x256 S160000x1 S160000x256 [1] [0] [0] 1
  dot_S2000x256_S256x256_S2000x256_1_0_0_1_n_n_wf : DotDims.WF S2000x256 S256x256 S2000x256 [1] [0] [0] [1] [] []
  scatter_S16_S20000x1_S20000_n_0_0_1_wf : ScatterDims.WF S16 S20000x1 S20000 [] [0] [0] 1
  scatter_S16x256_S20000x1_S20000x256_1_0_0_1_wf : ScatterDims.WF S16x256 S20000x1 S20000x256 [1] [0] [0] 1
  dot_S16x256_S256x128_S16x128_1_0_0_1_n_n_wf : DotDims.WF S16x256 S256x128 S16x128 [1] [0] [0] [1] [] []
  dot_S16x128_S128x2_S16x2_1_0_0_1_n_n_wf : DotDims.WF S16x128 S128x2 S16x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x512.size a ≤ S20000x512.size a
  hwx0_1 : ∀ i : grid0.Coords, EltTy.bits .f32 = 32 ∨ (Rect.block (s := S20000x512) S2000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .f32 = 32 ∨ (Rect.block (s := S512x256) S512x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S20000x256.size a
  hwx0_5 : ∀ i : grid0.Coords, EltTy.bits .f32 = 32 ∨ (Rect.block (s := S20000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S20000x256.size a
  hwx1_0 : ∀ i : grid1.Coords, EltTy.bits .f32 = 32 ∨ (Rect.block (s := S20000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S20000x256.size a
  hwx1_1 : ∀ i : grid1.Coords, EltTy.bits .f32 = 32 ∨ (Rect.block (s := S20000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S20000x256.size a
  hwx1_5 : ∀ i : grid1.Coords, EltTy.bits .f32 = 32 ∨ (Rect.block (s := S20000x256) S2000x256.size (cc1_transform_5 i) (hinb1_5 i)).WholeWords (EltTy.packing .f32)

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S16_S20000x1_S20000_n_0_0_1 : ScatterDims S16 S20000x1 S20000 where
  updateWindowDims := []
  insertedWindowDims := [0]
  scatterDimsToOperandDims := [0]
  indexVectorDim := 1
  wf := scatter_S16_S20000x1_S20000_n_0_0_1_wf
def scatter_S16x256_S20000x1_S20000x256_1_0_0_1 : ScatterDims S16x256 S20000x1 S20000x256 where
  updateWindowDims := [1]
  insertedWindowDims := [0]
  scatterDimsToOperandDims := [0]
  indexVectorDim := 1
  wf := scatter_S16x256_S20000x1_S20000x256_1_0_0_1_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x2_S16x2_1_0_0_1_n_n : DotDims S16x128 S128x2 S16x2 where
  lhsContracting := [1]
  rhsContracting := [0]
  lhsNonContracting := [0]
  rhsNonContracting := [1]
  lhsBatch := []
  rhsBatch := []
  wf := dot_S16x128_S128x2_S16x2_1_0_0_1_n_n_wf

abbrev win0_0 : Pipeline.Window sig grid0 :=
  Pipeline.Window.ofSpec (Memref.whole main_v24) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x512 : Shape := ⟨2, ![20000, 512]⟩
abbrev S2x160000 : Shape := ⟨2, ![2, 160000]⟩
abbrev S20000 : Shape := ⟨1, ![20000]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S128x2 : Shape := ⟨2, ![128, 2]⟩
abbrev S2 : Shape := ⟨1, ![2]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x512 : Shape := ⟨2, ![160000, 512]⟩
abbrev S20000x1 : Shape := ⟨2, ![20000, 1]⟩
abbrev S20000x256 : Shape := ⟨2, ![20000, 256]⟩
abbrev S1x256 : Shape := ⟨2, ![1, 256]⟩
abbrev S160000x256 : Shape := ⟨2, ![160000, 256]⟩
abbrev S16 : Shape := ⟨1, ![16]⟩
abbrev S16x256 : Shape := ⟨2, ![16, 256]⟩
abbrev S16x1 : Shape := ⟨2, ![16, 1]⟩
abbrev S16x128 : Shape := ⟨2, ![16, 128]⟩
abbrev S1x128 : Shape := ⟨2, ![1, 128]⟩
abbrev S16x2 : Shape := ⟨2, ![16, 2]⟩
abbrev S1x2 : Shape := ⟨2, ![1, 2]⟩

abbrev nBuf : Space → Nat
  | .hbm => 112
  | .vmem => 0
  | .smem => 0
  | _ => 0

abbrev bufTy : (tb : Table) → Fin (tcTables nBuf tb) → BufTy
  | .hbm, ⟨0, _⟩ => ⟨S20000x512, .f32⟩
  | .hbm, ⟨1, _⟩ => ⟨S2x160000, .i32⟩
  | .hbm, ⟨2, _⟩ => ⟨S20000, .i32⟩
  | .hbm, ⟨3, _⟩ => ⟨S512x256, .f32⟩
  | .hbm, ⟨4, _⟩ => ⟨S512x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x2, .f32⟩
  | .hbm, ⟨12, _⟩ => ⟨S2, .f32⟩
  | .hbm, ⟨13, _⟩ => ⟨S1x160000, .i32⟩
  | .hbm, ⟨14, _⟩ => ⟨S160000, .i32⟩
  | .hbm, ⟨15, _⟩ => ⟨S1x160000, .i32⟩
  | .hbm, ⟨16, _⟩ => ⟨S160000, .i32⟩
  | .hbm, ⟨17, _⟩ => ⟨S_, .f32⟩
  | .hbm, ⟨18, _⟩ => ⟨S160000, .f32⟩
  | .hbm, ⟨19, _⟩ => ⟨S_, .f32⟩
  | .hbm, ⟨20, _⟩ => ⟨S20000, .f32⟩
  | .hbm, ⟨21, _⟩ => ⟨S160000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .f32⟩
  | .hbm, ⟨26, _⟩ => ⟨S_, .i32⟩
  | .hbm, ⟨27, _⟩ => ⟨S160000, .i32⟩
  | .hbm, ⟨28, _⟩ => ⟨S160000, .i1⟩
  | .hbm, ⟨29, _⟩ => ⟨S_, .i32⟩
  | .hbm, ⟨30, _⟩ => ⟨S160000, .i32⟩
  | .hbm, ⟨31, _⟩ => ⟨S160000, .i32⟩
  | .hbm, ⟨32, _⟩ => ⟨S160000, .i32⟩
  | .hbm, ⟨33, _⟩ => ⟨S160000x1, .i32⟩
  | .hbm, ⟨34, _⟩ => ⟨S160000x512, .f32⟩
  | .hbm, ⟨35, _⟩ => ⟨S_, .f32⟩
  | .hbm, ⟨36, _⟩ => ⟨S20000x512, .f32⟩
  | .hbm, ⟨37, _⟩ => ⟨S160000x1, .i32⟩
  | .hbm, ⟨38, _⟩ => ⟨S20000x512, .f32⟩
  | .hbm, ⟨39, _⟩ => ⟨S20000x1, .f32⟩
  | .hbm, ⟨40, _⟩ => ⟨S20000x512, .f32⟩
  | .hbm, ⟨41, _⟩ => ⟨S20000x512, .f32⟩
  | .hbm, ⟨42, _⟩ => ⟨S20000x256, .f32⟩
  | .hbm, ⟨43, _⟩ => ⟨S20000x256, .f32⟩
  | .hbm, ⟨44, _⟩ => ⟨S20000x256, .f32⟩
  | .hbm, ⟨45, _⟩ => ⟨S1x256, .f32⟩
  | .hbm, ⟨46, _⟩ => ⟨S20000x256, .f32⟩
  | .hbm, ⟨47, _⟩ => ⟨S20000x256, .f32⟩
  | .hbm, ⟨48, _⟩ => ⟨S_, .f32⟩
  | .hbm, ⟨49, _⟩ => ⟨S20000x256, .f32⟩
  | .hbm, ⟨50, _⟩ => ⟨S20000x256, .f32⟩
  | .hbm, ⟨51, _⟩ => ⟨S_, .f32⟩
  | .hbm, ⟨52, _⟩ => ⟨S160000, .f32⟩
  | .hbm, ⟨53, _⟩ => ⟨S_, .f32⟩
  | .hbm, ⟨54, _⟩ => ⟨S20000, .f32⟩
  | .hbm, ⟨55, _⟩ => ⟨S160000x1, .i32⟩
  | .hbm, ⟨56, _⟩ => ⟨S20000, .f32⟩
  | .hbm, ⟨57, _⟩ => ⟨S_, .f32⟩
  | .hbm, ⟨58, _⟩ => ⟨S20000, .f32⟩
  | .hbm, ⟨59, _⟩ => ⟨S20000, .f32⟩
  | .hbm, ⟨60, _⟩ => ⟨S_, .i32⟩
  | .hbm, ⟨61, _⟩ => ⟨S160000, .i32⟩
  | .hbm, ⟨62, _⟩ => ⟨S160000, .i1⟩
  | .hbm, ⟨63, _⟩ => ⟨S_, .i32⟩
  | .hbm, ⟨64, _⟩ => ⟨S160000, .i32⟩
  | .hbm, ⟨65, _⟩ => ⟨S160000, .i32⟩
  | .hbm, ⟨66, _⟩ => ⟨S160000, .i32⟩
  | .hbm, ⟨67, _⟩ => ⟨S160000x1, .i32⟩
  | .hbm, ⟨68, _⟩ => ⟨S160000x256, .f32⟩
  | .hbm, ⟨69, _⟩ => ⟨S_, .f32⟩
  | .hbm, ⟨70, _⟩ => ⟨S20000x256, .f32⟩
  | .hbm, ⟨71, _⟩ => ⟨S160000x1, .i32⟩
  | .hbm, ⟨72, _⟩ => ⟨S20000x256, .f32⟩
  | .hbm, ⟨73, _⟩ => ⟨S20000x1, .f32⟩
  | .hbm, ⟨74, _⟩ => ⟨S20000x256, .f32⟩
  | .hbm, ⟨75, _⟩ => ⟨S20000x256, .f32⟩
  | .hbm, ⟨76, _⟩ => ⟨S20000x256, .f32⟩
  | .hbm, ⟨77, _⟩ => ⟨S20000x256, .f32⟩
  | .hbm, ⟨78, _⟩ => ⟨S20000x256, .f32⟩
  | .hbm, ⟨79, _⟩ => ⟨S1x256, .f32⟩
  | .hbm, ⟨80, _⟩ => ⟨S20000x256, .f32⟩
  | .hbm, ⟨81, _⟩ => ⟨S20000x256, .f32⟩
  | .hbm, ⟨82, _⟩ => ⟨S_, .f32⟩
  | .hbm, ⟨83, _⟩ => ⟨S20000x256, .f32⟩
  | .hbm, ⟨84, _⟩ => ⟨S20000x256, .f32⟩
  | .hbm, ⟨85, _⟩ => ⟨S_, .f32⟩
  | .hbm, ⟨86, _⟩ => ⟨S20000, .f32⟩
  | .hbm, ⟨87, _⟩ => ⟨S_, .f32⟩
  | .hbm, ⟨88, _⟩ => ⟨S16, .f32⟩
  | .hbm, ⟨89, _⟩ => ⟨S20000x1, .i32⟩
  | .hbm, ⟨90, _⟩ => ⟨S16, .f32⟩
  | .hbm, ⟨91, _⟩ => ⟨S_, .f32⟩
  | .hbm, ⟨92, _⟩ => ⟨S16x256, .f32⟩
  | .hbm, ⟨93, _⟩ => ⟨S20000x1, .i32⟩
  | .hbm, ⟨94, _⟩ => ⟨S16x256, .f32⟩
  | .hbm, ⟨95, _⟩ => ⟨S_, .f32⟩
  | .hbm, ⟨96, _⟩ => ⟨S16, .f32⟩
  | .hbm, ⟨97, _⟩ => ⟨S16, .f32⟩
  | .hbm, ⟨98, _⟩ => ⟨S16x1, .f32⟩
  | .hbm, ⟨99, _⟩ => ⟨S16x256, .f32⟩
  | .hbm, ⟨100, _⟩ => ⟨S16x256, .f32⟩
  | .hbm, ⟨101, _⟩ => ⟨S16x128, .f32⟩
  | .hbm, ⟨102, _⟩ => ⟨S1x128, .f32⟩
  | .hbm, ⟨103, _⟩ => ⟨S16x128, .f32⟩
  | .hbm, ⟨104, _⟩ => ⟨S16x128, .f32⟩
  | .hbm, ⟨105, _⟩ => ⟨S_, .f32⟩
  | .hbm, ⟨106, _⟩ => ⟨S16x128, .f32⟩
  | .hbm, ⟨107, _⟩ => ⟨S16x128, .f32⟩
  | .hbm, ⟨108, _⟩ => ⟨S16x2, .f32⟩
  | .hbm, ⟨109, _⟩ => ⟨S1x2, .f32⟩
  | .hbm, ⟨110, _⟩ => ⟨S16x2, .f32⟩
  | .hbm, ⟨111, _⟩ => ⟨S16x2, .f32⟩
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_c : Ref sig .tc := ⟨.hbm, 26, rfl⟩
abbrev main_v10 : Ref sig .tc := ⟨.hbm, 27, rfl⟩
abbrev main_v11 : Ref sig .tc := ⟨.hbm, 28, rfl⟩
abbrev main_c_2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_call1_cst : Ref sig .tc := ⟨.hbm, 82, rfl⟩
abbrev main_call1_v0 : Ref sig .tc := ⟨.hbm, 83, rfl⟩
abbrev main_v55 : Ref sig .tc := ⟨.hbm, 84, rfl⟩
abbrev main_cst_10 : Ref sig .tc := ⟨.hbm, 85, rfl⟩
abbrev main_v56 : Ref sig .tc := ⟨.hbm, 86, rfl⟩
abbrev main_cst_11 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_13 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_call2_cst : Ref sig .tc := ⟨.hbm, 105, rfl⟩
abbrev main_call2_v0 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S20000 : S_.BroadcastsInDim S20000 (![] : Fin 0 → Fin S20000.rank)
  bcast_S160000_S160000x1_0 : S160000.BroadcastsInDim S160000x1 (![0] : Fin 1 → Fin S160000x1.rank)
  bcast_S_S20000x512 : S_.BroadcastsInDim S20000x512 (![] : Fin 0 → Fin S20000x512.rank)
  bcast_S20000_S20000x1_0 : S20000.BroadcastsInDim S20000x1 (![0] : Fin 1 → Fin S20000x1.rank)
  bcast_S20000x1_S20000x512_0_1 : S20000x1.BroadcastsInDim S20000x512 (![0, 1] : Fin 2 → Fin S20000x512.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  bcast_S_S20000x256 : S_.BroadcastsInDim S20000x256 (![] : Fin 0 → Fin S20000x256.rank)
  bcast_S20000x1_S20000x256_0_1 : S20000x1.BroadcastsInDim S20000x256 (![0, 1] : Fin 2 → Fin S20000x256.rank)
  bcast_S_S16 : S_.BroadcastsInDim S16 (![] : Fin 0 → Fin S16.rank)
  bcast_S_S16x256 : S_.BroadcastsInDim S16x256 (![] : Fin 0 → Fin S16x256.rank)
  bcast_S16_S16x1_0 : S16.BroadcastsInDim S16x1 (![0] : Fin 1 → Fin S16x1.rank)
  bcast_S16x1_S16x256_0_1 : S16x1.BroadcastsInDim S16x256 (![0, 1] : Fin 2 → Fin S16x256.rank)
  bcast_S128_S1x128_1 : S128.BroadcastsInDim S1x128 (![1] : Fin 1 → Fin S1x128.rank)
  bcast_S1x128_S16x128_0_1 : S1x128.BroadcastsInDim S16x128 (![0, 1] : Fin 2 → Fin S16x128.rank)
  bcast_S_S16x128 : S_.BroadcastsInDim S16x128 (![] : Fin 0 → Fin S16x128.rank)
  bcast_S2_S1x2_1 : S2.BroadcastsInDim S1x2 (![1] : Fin 1 → Fin S1x2.rank)
  bcast_S1x2_S16x2_0_1 : S1x2.BroadcastsInDim S16x2 (![0, 1] : Fin 2 → Fin S16x2.rank)
  scatter_S20000_S160000x1_S160000_n_0_0_1_wf : ScatterDims.WF S20000 S160000x1 S160000 [] [0] [0] 1
  gather_S20000x512_S160000x1_S160000x512_1_0_n_n_0_1_1512_wf : GatherDims.WF S20000x512 S160000x1 S160000x512 [1] [0] [] [0] [] 1 ![1, 512]
  scatter_S20000x512_S160000x1_S160000x512_1_0_0_1_wf : ScatterDims.WF S20000x512 S160000x1 S160000x512 [1] [0] [0] 1
  dot_S20000x512_S512x256_S20000x256_1_0_0_1_n_n_wf : DotDims.WF S20000x512 S512x256 S20000x256 [1] [0] [0] [1] [] []
  gather_S20000x256_S160000x1_S160000x256_1_0_n_n_0_1_1256_wf : GatherDims.WF S20000x256 S160000x1 S160000x256 [1] [0] [] [0] [] 1 ![1, 256]
  scatter_S20000x256_S160000x1_S160000x256_1_0_0_1_wf : ScatterDims.WF S20000x256 S160000x1 S160000x256 [1] [0] [0] 1
  dot_S20000x256_S256x256_S20000x256_1_0_0_1_n_n_wf : DotDims.WF S20000x256 S256x256 S20000x256 [1] [0] [0] [1] [] []
  scatter_S16_S20000x1_S20000_n_0_0_1_wf : ScatterDims.WF S16 S20000x1 S20000 [] [0] [0] 1
  scatter_S16x256_S20000x1_S20000x256_1_0_0_1_wf : ScatterDims.WF S16x256 S20000x1 S20000x256 [1] [0] [0] 1
  dot_S16x256_S256x128_S16x128_1_0_0_1_n_n_wf : DotDims.WF S16x256 S256x128 S16x128 [1] [0] [0] [1] [] []
  dot_S16x128_S128x2_S16x2_1_0_0_1_n_n_wf : DotDims.WF S16x128 S128x2 S16x2 [1] [0] [0] [1] [] []

variable [Facts₀]

def scatter_S20000_S160000x1_S160000_n_0_0_1 : ScatterDims S20000 S160000x1 S160000 where
  updateWindowDims := []
  insertedWindowDims := [0]
  scatterDimsToOperandDims := [0]
  indexVectorDim := 1
  wf := scatter_S20000_S160000x1_S160000_n_0_0_1_wf
def gather_S20000x512_S160000x1_S160000x512_1_0_n_n_0_1_1512 : GatherDims S20000x512 S160000x1 S160000x512 where
  offsetDims := [1]
  collapsedSliceDims := [0]
  operandBatchingDims := []
  startIndicesBatchingDims := []
  startIndexMap := [0]
  indexVectorDim := 1
  sliceSizes := ![1, 512]
  wf := gather_S20000x512_S160000x1_S160000x512_1_0_n_n_0_1_1512_wf
def scatter_S20000x512_S160000x1_S160000x512_1_0_0_1 : ScatterDims S20000x512 S160000x1 S160000x512 where
  updateWindowDims := [1]
  insertedWindowDims := [0]
  scatterDimsToOperandDims := [0]
  indexVectorDim := 1
  wf := scatter_S20000x512_S160000x1_S160000x512_1_0_0_1_wf
def dot_S20000x512_S512x256_S20000x256_1_0_0_1_n_n : DotDims S20000x512 S512x256 S20000x256 where
  lhsContracting := [1]
  rhsContracting := [0]
  lhsNonContracting := [0]
  rhsNonContracting := [1]
  lhsBatch := []
  rhsBatch := []
  wf := dot_S20000x512_S512x256_S20000x256_1_0_0_1_n_n_wf
def gather_S20000x256_S160000x1_S160000x256_1_0_n_n_0_1_1256 : GatherDims S20000x256 S160000x1 S160000x256 where
  offsetDims := [1]
  collapsedSliceDims := [0]
  operandBatchingDims := []
  startIndicesBatchingDims := []
  startIndexMap := [0]
  indexVectorDim := 1
  sliceSizes := ![1, 256]
  wf := gather_S20000x256_S160000x1_S160000x256_1_0_n_n_0_1_1256_wf
def scatter_S20000x256_S160000x1_S160000x256_1_0_0_1 : ScatterDims S20000x256 S160000x1 S160000x256 where
  updateWindowDims := [1]
  insertedWindowDims := [0]
  scatterDimsToOperandDims := [0]
  indexVectorDim := 1
  wf := scatter_S20000x256_S160000x1_S160000x256_1_0_0_1_wf
def dot_S20000x256_S256x256_S20000x256_1_0_0_1_n_n : DotDims S20000x256 S256x256 S20000x256 where
  lhsContracting := [1]
  rhsContracting := [0]
  lhsNonContracting := [0]
  rhsNonContracting := [1]
  lhsBatch := []
  rhsBatch := []
  wf := dot_S20000x256_S256x256_S20000x256_1_0_0_1_n_n_wf
def scatter_S16_S20000x1_S20000_n_0_0_1 : ScatterDims S16 S20000x1 S20000 where
  updateWindowDims := []
  insertedWindowDims := [0]
  scatterDimsToOperandDims := [0]
  indexVectorDim := 1
  wf := scatter_S16_S20000x1_S20000_n_0_0_1_wf
def scatter_S16x256_S20000x1_S20000x256_1_0_0_1 : ScatterDims S16x256 S20000x1 S20000x256 where
  updateWindowDims := [1]
  insertedWindowDims := [0]
  scatterDimsToOperandDims := [0]
  indexVectorDim := 1
  wf := scatter_S16x256_S20000x1_S20000x256_1_0_0_1_wf
def dot_S16x256_S256x128_S16x128_1_0_0_1_n_n : DotDims S16x256 S256x128 S16x128 where
  lhsContracting := [1]
  rhsContracting := [0]
  lhsNonContracting := [0]
  rhsNonContracting := [1]
  lhsBatch := []
  rhsBatch := []
  wf := dot_S16x256_S256x128_S16x128_1_0_0_1_n_n_wf
def dot_S16x128_S128x2_S16x2_1_0_0_1_n_n : DotDims S16x128 S128x2 S16x2 where
  lhsContracting := [1]
  rhsContracting := [0]
  lhsNonContracting := [0]
  rhsNonContracting := [1]
  lhsBatch := []
  rhsBatch := []
  wf := dot_S16x128_S128x2_S16x2_1_0_0_1_n_n_wf

class Facts : Prop extends Facts₀ where

variable [Facts]
-- ==== Proof.KernelRun.lean ====
/-
  The idealized kernel's whole run, with its RESULT kept.

  The program is seven segments: host operations, the first layer's region, host operations, the second
  layer's region, and three stretches of host operations for the pooling and the classifier. Every weakly
  fair execution runs through them in order, and at the end every buffer the TensorCore holds has the
  contents the fold through the segments leaves there: a host stretch leaves each of its results at its
  operation's value of the contents before it; a region leaves each of its arrays at what its grid points
  wrote back and every other buffer as it found it. The result of the program is the last stretch's last
  buffer, so it ends at that fold's value; the thirteen argument arrays are written by nothing and end
  as launched.
-/
import proofs.«173368_j4801773437763_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing
    faulting; the result buffer ends at the value the fold through the seven segments leaves there, and the
    argument arrays end as launched. -/
theorem run_result : θ_run defs (onTc (τ := τ) (main (F := F))) ⟨m, fun _ => 0, ρ⟩ (fun r => ∀ c : Dev nD,
      r.2.mem ((c.tc : Thread nD τ).loc main_v64) = W7 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v64 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.WholeRun

end
-- ==== Proof.LibReciprocal.lean ====
/-
  Scaling by a reciprocal against dividing, over the extended reals.

  Division of extended reals is the product with the inverse whenever the divisor is not zero, at the
  infinities too (the inverse of either infinity is zero). Hence, for a divisor `y` that is at least one,
  `x · (1 / y) = x / y` for EVERY extended real `x`: both sides are `x · y⁻¹`. Nothing has to be finite.

  The array form: an array `S` scaled entry by entry by the reciprocal of a clamped count, the count read
  through any re-indexing `π` of the entries (a column of counts broadcast along the rows), is `S`
  divided entry by entry by the clamped count read through the same re-indexing. A count clamped from
  below by one, `max c 1`, is at least one whatever `c` is.
-/
import Idealize.ShloMosaic.PureOps.Ideal.Laws
import Idealize.ShloMosaic.Lib.IdealHost

noncomputable section

namespace Reciprocal

open Idealize.ShloMosaic

/-- `x · (1 / y) = x / y` for a divisor at least one: both are `x · y⁻¹`. -/
theorem mul_one_div {x y : EReal} (hy : 1 ≤ y) : x * Ideal.div 1 y = Ideal.div x y := by
  have h0 : y ≠ 0 := fun h => absurd (h ▸ hy) (by norm_num)
  unfold Ideal.div
  rw [if_neg h0, if_neg h0, one_mul]

/-- The f32 pattern of one, splatted, is one at every index. -/
theorem constant_one {s : Shape} (k : s.Idx) : (constant (F := Ideal) s .f32 0x3F800000#32) k = 1 :=
  Ideal.ofBits_one_f32

/-- A count clamped from below by the splat of one is at least one. -/
theorem one_le_clamp {s : Shape} (C O : FVec Ideal s .f32) (hO : ∀ k, O k = 1) (k : s.Idx) :
    1 ≤ (maximumf C O) k := by
  show (1 : EReal) ≤ max (C k) (O k)
  rw [hO k]; exact le_max_right _ _

/-- An array scaled by the reciprocal of a clamped count, read through a re-indexing `π`, is the array
    divided by the clamped count read through `π`. -/
theorem scale_eq_divide {s t : Shape} (S : FVec Ideal t .f32) (O D : FVec Ideal s .f32) (π : t.Idx → s.Idx)
    (hO : ∀ k, O k = 1) (hD : ∀ k, 1 ≤ D k) :
    mulf S (fun j => (Host.divf O D) (π j)) = Host.divf S (fun j => D (π j)) := by
  funext j
  show S j * Ideal.div (O (π j)) (D (π j)) = Ideal.div (S j) (D (π j))
  rw [hO]; exact mul_one_div (hD _)

/-- The same with the re-indexing spelt as two broadcasts in a row (a vector of counts made a column, the
    column repeated along the rows). -/
theorem scale_bcast_eq_divide {s s1 t : Shape} (S : FVec Ideal t .f32) (O D : FVec Ideal s .f32)
    (d1 : Fin s.rank → Fin s1.rank) (h1 : s.BroadcastsInDim s1 d1)
    (d2 : Fin s1.rank → Fin t.rank) (h2 : s1.BroadcastsInDim t d2)
    (hO : ∀ k, O k = 1) (hD : ∀ k, 1 ≤ D k) :
    mulf S (broadcastInDim t d2 h2 (broadcastInDim s1 d1 h1 (Host.divf O D)))
      = Host.divf S (broadcastInDim t d2 h2 (broadcastInDim s1 d1 h1 D)) := by
  funext j
  show S j * Ideal.div (O _) (D _) = Ideal.div (S j) (D _)
  rw [hO]; exact mul_one_div (hD _)

end Reciprocal

end
-- ==== Proof.LibPlainDot.lean ====
/-
  The plain matrix product [M, K] × [K, N] → [M, N] (contract the left operand's second axis with the
  right operand's first) read at an entry, over the extended reals: entry (r, n) of the product is
  ∑ k, l (r, k) · r (k, n). Two operations compute it: a vector matrix product into an accumulator that
  is zero everywhere, and the host's dot_general. Both are that one finite sum, hence equal to each
  other; no order of summation and no rounding is left in either, and nothing here needs an entry
  to be finite.
-/
import Idealize.ShloMosaic.PureOps.Ideal.Laws
import Idealize.ShloMosaic.Lib.ValueIdx

noncomputable section

namespace PlainDot

open Idealize.ShloMosaic Idealize.ShloMosaic.ValueIdx

variable {M K N : Nat}

/-- The contraction runs over one axis, of extent `K`. -/
theorem contr_rank : (DotDims.plain M K N).contr.rank = 1 := rfl
theorem contr_size : (DotDims.plain M K N).contr.size ⟨0, by rw [contr_rank]; exact Nat.one_pos⟩ = K := rfl

/-- The left operand is read in the result's row … -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
/-- … at the contraction position; -/
theorem lhs_col (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single rfl j q
/-- the right operand at the contraction position … -/
theorem rhs_row (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single rfl j q
/-- … in the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction index, re-indexed by the one coordinate `k : Fin K`: the left operand at
    (row of `j`, `k`) times the right operand at (`k`, column of `j`). -/
theorem sum_contr (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = ∑ k : Fin K, l (ix2 (j 0) k) * r (ix2 k (j 1)) := by
  rw [← Equiv.sum_comp (contrEquiv1 (DotDims.plain M K N) K contr_rank contr_size).symm]
  refine Finset.sum_congr rfl fun k _ => ?_
  have hk := contrEquiv1_symm_val (DotDims.plain M K N) K contr_rank contr_size k
  have el : (DotDims.plain M K N).lhsIdx j ((contrEquiv1 (DotDims.plain M K N) K contr_rank contr_size).symm k) = ix2 (j 0) k :=
    funext fun a => Fin.ext (by
      match a with
      | ⟨0, _⟩ => exact lhs_row _ _
      | ⟨1, _⟩ => exact (lhs_col _ _).trans hk)
  have er : (DotDims.plain M K N).rhsIdx j ((contrEquiv1 (DotDims.plain M K N) K contr_rank contr_size).symm k) = ix2 k (j 1) :=
    funext fun a => Fin.ext (by
      match a with
      | ⟨0, _⟩ => exact (rhs_row _ _).trans hk
      | ⟨1, _⟩ => exact rhs_col _ _)
  exact congrArg₂ (· * ·) (congrArg l el) (congrArg r er)

/-- A vector matrix product into the accumulator that is zero everywhere, at an entry. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr l r j)

/-- The host's dot_general, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr l r j)

end PlainDot

end
-- ==== Proof.LibSageDense.lean ====
/-
  A dense layer with two inputs, a bias row and a rectifier, over the extended reals:

      out (r, n) = max ( ∑ k, A (r, k) · Wn (k, n)  +  ∑ k, X (r, k) · Ws (k, n)  +  b (0, n) ,  0 ).

  Entry (r, n) depends on row r of the two inputs, column n of the two weights and entry n of the bias
  only (`entry`), so a block of rows of the result is the same layer of the same block of rows of the
  inputs. The host's spelling — two dot_generals, two sums, a maximum against a splat of zero — is this
  function (`host_eq`): each dot_general read at an entry is the finite sum over the contracted axis.
-/
import Idealize.ShloMosaic.PureOps.Ideal.Laws
import Idealize.ShloMosaic.Lib.ValueIdx
import proofs.«173368_j4801773437763_1_alg».proof.Proof.LibPlainDot

noncomputable section

namespace SageDense

open Idealize.ShloMosaic Idealize.ShloMosaic.ValueIdx

variable {M K N : Nat}

/-- One entry of the layer, from a row of each input, a column of each weight and one bias entry. -/
def entry (a x wn ws : Fin K → EReal) (β : EReal) : EReal :=
  max ((∑ k, a k * wn k) + (∑ k, x k * ws k) + β) 0

/-- The layer as one function of its five arrays, entry by entry. -/
def layer (A X : FVec Ideal ⟨2, ![M, K]⟩ .f32) (Wn Ws : FVec Ideal ⟨2, ![K, N]⟩ .f32)
    (b : FVec Ideal ⟨2, ![1, N]⟩ .f32) : FVec Ideal ⟨2, ![M, N]⟩ .f32 :=
  fun j => entry (fun k => A (ix2 (j 0) k)) (fun k => X (ix2 (j 0) k)) (fun k => Wn (ix2 k (j 1)))
    (fun k => Ws (ix2 k (j 1))) (b (ix2 0 (j 1)))

/-- The host's spelling of the layer: the bias already broadcast along the rows (`brow`), the rectifier a
    maximum against an array that is zero everywhere (`z`). -/
theorem host_eq (d : DotDims ⟨2, ![M, K]⟩ ⟨2, ![K, N]⟩ ⟨2, ![M, N]⟩) (hd : d = DotDims.plain M K N)
    (A X : FVec Ideal ⟨2, ![M, K]⟩ .f32) (Wn Ws : FVec Ideal ⟨2, ![K, N]⟩ .f32)
    (brow z : FVec Ideal ⟨2, ![M, N]⟩ .f32) (b : FVec Ideal ⟨2, ![1, N]⟩ .f32)
    (hb : ∀ j, brow j = b (ix2 0 (j 1))) (hz : ∀ j, z j = 0) :
    maximumf (addf (addf (Host.dotGeneral d none A Wn) (Host.dotGeneral d none X Ws)) brow) z
      = layer A X Wn Ws b := by
  subst hd
  funext j
  show max (FloatOps.dotGeneral (DotDims.plain M K N) none .single A Wn j
      + FloatOps.dotGeneral (DotDims.plain M K N) none .single X Ws j + brow j) (z j) = _
  rw [PlainDot.dotGeneral_apply, PlainDot.dotGeneral_apply, hb, hz]
  rfl

end SageDense

end
-- ==== Proof.Pieces.lean ====
/-
  The network, piece by piece, as functions of whole arrays over the extended reals, in the reference's
  spelling: the edge lists, the clamped in-degree, the neighbour sum, the mean over neighbours, the dense
  layer, the per-graph count and sum, and the classifier head.

  The mean over neighbours comes in two spellings. One DIVIDES the neighbour sum by the clamped count
  (`meanDiv…`); the other MULTIPLIES it by the count's reciprocal, computed once (`meanMul…`). The count is
  clamped from below by one, so it is never zero, and then `s · (1 / d) = s / d` for every extended real
  `s`: the two spellings are one function. The same holds for the mean over each graph's nodes.

  The dense layer's host spelling (two dot_generals, the bias broadcast, a maximum against zero) is the
  entrywise layer `SageDense.layer` of the same arrays.
-/
import proofs.«173368_j4801773437763_1_alg».proof.Proof.Gen.ReferenceIdeal
import proofs.«173368_j4801773437763_1_alg».proof.Proof.LibReciprocal
import proofs.«173368_j4801773437763_1_alg».proof.Proof.LibSageDense

noncomputable section

namespace Cert.Pieces

open Idealize.ShloMosaic Idealize.ShloMosaic.ValueIdx Cert.ReferenceIdeal Cert.ReferenceIdeal.Gen

local notation "𝔽" => FVec Ideal
local notation "ONE" => (0x3F800000#32 : BitVec 32)
local notation "ZERO" => (0x00000000#32 : BitVec 32)

/-! ## The edge lists -/

/-- Row 0 of the edge array: each edge's source node, as stored. -/
def srcRaw (ei : IVec S2x160000 32) : IVec S160000 32 :=
  shapeCast _ (extractStridedSlice S1x160000 ![0, 0] ei slices_S2x160000_S1x160000_0_0) shapeCasts_S1x160000_S160000
/-- Row 1 of the edge array: each edge's target node, as stored. -/
def dstRaw (ei : IVec S2x160000 32) : IVec S160000 32 :=
  shapeCast _ (extractStridedSlice S1x160000 ![1, 0] ei slices_S2x160000_S1x160000_1_0) shapeCasts_S1x160000_S160000
/-- The sources as a column of gather indices, a negative index counted from the end. -/
def srcCol (s : IVec S160000 32) : IVec S160000x1 32 :=
  broadcastInDim S160000x1 ![0] bcast_S160000_S160000x1_0
    (select (cmpi .slt s (broadcastInDim S160000 ![] bcast_S_S160000 (constantI S_ 32 0#32)))
      (addi s (broadcastInDim S160000 ![] bcast_S_S160000 (constantI S_ 32 20000#32))) s)
/-- The targets as a column of scatter indices. -/
def dstCol (d : IVec S160000 32) : IVec S160000x1 32 :=
  broadcastInDim S160000x1 ![0] bcast_S160000_S160000x1_0 d

/-! ## The clamped in-degree and its reciprocal -/

/-- Each node's number of incoming edges, clamped from below by one. -/
def deg (d : IVec S160000 32) : 𝔽 S20000 .f32 :=
  maximumf (Host.scatterAdd scatter_S20000_S160000x1_S160000_n_0_0_1
      (broadcastInDim S20000 ![] bcast_S_S20000 (constant S_ .f32 ZERO)) (dstCol d)
      (broadcastInDim S160000 ![] bcast_S_S160000 (constant S_ .f32 ONE)))
    (broadcastInDim S20000 ![] bcast_S_S20000 (constant S_ .f32 ONE))
/-- Its reciprocal. -/
def degInv (d : IVec S160000 32) : 𝔽 S20000 .f32 :=
  Host.divf (broadcastInDim S20000 ![] bcast_S_S20000 (constant S_ .f32 ONE)) (deg d)

theorem one_le_deg (d : IVec S160000 32) (k : S20000.Idx) : 1 ≤ deg d k :=
  Reciprocal.one_le_clamp _ _ (fun _ => Reciprocal.constant_one (s := S_) _) k

/-! ## The mean over neighbours, 512 features wide -/

/-- The sum over each node's incoming edges of the source node's row. -/
def nbrSum512 (x : 𝔽 S20000x512 .f32) (s d : IVec S160000 32) : 𝔽 S20000x512 .f32 :=
  Host.scatterAdd scatter_S20000x512_S160000x1_S160000x512_1_0_0_1
    (broadcastInDim S20000x512 ![] bcast_S_S20000x512 (constant S_ .f32 ZERO)) (dstCol d)
    (Host.gather gather_S20000x512_S160000x1_S160000x512_1_0_n_n_0_1_1512 x (srcCol s))
def meanDiv512 (x : 𝔽 S20000x512 .f32) (s d : IVec S160000 32) : 𝔽 S20000x512 .f32 :=
  Host.divf (nbrSum512 x s d)
    (broadcastInDim S20000x512 ![0, 1] bcast_S20000x1_S20000x512_0_1 (broadcastInDim S20000x1 ![0] bcast_S20000_S20000x1_0 (deg d)))
def meanMul512 (x : 𝔽 S20000x512 .f32) (s d : IVec S160000 32) (r : 𝔽 S20000 .f32) : 𝔽 S20000x512 .f32 :=
  mulf (nbrSum512 x s d)
    (broadcastInDim S20000x512 ![0, 1] bcast_S20000x1_S20000x512_0_1 (broadcastInDim S20000x1 ![0] bcast_S20000_S20000x1_0 r))

theorem meanMul512_eq (x : 𝔽 S20000x512 .f32) (s d : IVec S160000 32) :
    meanMul512 x s d (degInv d) = meanDiv512 x s d :=
  Reciprocal.scale_bcast_eq_divide _ _ _ _ _ _ _ (fun _ => Reciprocal.constant_one (s := S_) _) (one_le_deg d)

/-! ## The mean over neighbours, 256 features wide -/

def nbrSum256 (h : 𝔽 S20000x256 .f32) (s d : IVec S160000 32) : 𝔽 S20000x256 .f32 :=
  Host.scatterAdd scatter_S20000x256_S160000x1_S160000x256_1_0_0_1
    (broadcastInDim S20000x256 ![] bcast_S_S20000x256 (constant S_ .f32 ZERO)) (dstCol d)
    (Host.gather gather_S20000x256_S160000x1_S160000x256_1_0_n_n_0_1_1256 h (srcCol s))
def meanDiv256 (h : 𝔽 S20000x256 .f32) (s d : IVec S160000 32) : 𝔽 S20000x256 .f32 :=
  Host.divf (nbrSum256 h s d)
    (broadcastInDim S20000x256 ![0, 1] bcast_S20000x1_S20000x256_0_1 (broadcastInDim S20000x1 ![0] bcast_S20000_S20000x1_0 (deg d)))
def meanMul256 (h : 𝔽 S20000x256 .f32) (s d : IVec S160000 32) (r : 𝔽 S20000 .f32) : 𝔽 S20000x256 .f32 :=
  mulf (nbrSum256 h s d)
    (broadcastInDim S20000x256 ![0, 1] bcast_S20000x1_S20000x256_0_1 (broadcastInDim S20000x1 ![0] bcast_S20000_S20000x1_0 r))

theorem meanMul256_eq (h : 𝔽 S20000x256 .f32) (s d : IVec S160000 32) :
    meanMul256 h s d (degInv d) = meanDiv256 h s d :=
  Reciprocal.scale_bcast_eq_divide _ _ _ _ _ _ _ (fun _ => Reciprocal.constant_one (s := S_) _) (one_le_deg d)

/-! ## The dense layers -/

/-- The first layer in the host's spelling. -/
def dense512 (A X : 𝔽 S20000x512 .f32) (Wn Ws : 𝔽 S512x256 .f32) (b : 𝔽 S256 .f32) : 𝔽 S20000x256 .f32 :=
  maximumf (addf (addf (Host.dotGeneral dot_S20000x512_S512x256_S20000x256_1_0_0_1_n_n none A Wn)
        (Host.dotGeneral dot_S20000x512_S512x256_S20000x256_1_0_0_1_n_n none X Ws))
      (broadcastInDim S20000x256 ![0, 1] bcast_S1x256_S20000x256_0_1 (broadcastInDim S1x256 ![1] bcast_S256_S1x256_1 b)))
    (broadcastInDim S20000x256 ![] bcast_S_S20000x256 (constant S_ .f32 ZERO))
/-- The second layer in the host's spelling. -/
def dense256 (A X : 𝔽 S20000x256 .f32) (Wn Ws : 𝔽 S256x256 .f32) (b : 𝔽 S256 .f32) : 𝔽 S20000x256 .f32 :=
  maximumf (addf (addf (Host.dotGeneral dot_S20000x256_S256x256_S20000x256_1_0_0_1_n_n none A Wn)
        (Host.dotGeneral dot_S20000x256_S256x256_S20000x256_1_0_0_1_n_n none X Ws))
      (broadcastInDim S20000x256 ![0, 1] bcast_S1x256_S20000x256_0_1 (broadcastInDim S1x256 ![1] bcast_S256_S1x256_1 b)))
    (broadcastInDim S20000x256 ![] bcast_S_S20000x256 (constant S_ .f32 ZERO))

/-- A bias vector as a row. -/
def biasRow (b : 𝔽 S256 .f32) : 𝔽 S1x256 .f32 := broadcastInDim S1x256 ![1] bcast_S256_S1x256_1 b

/-- A row repeated down the rows, read at an entry: the row's entry in that column. -/
theorem rowRepeat_apply (R : 𝔽 S1x256 .f32) (j : S20000x256.Idx) :
    broadcastInDim S20000x256 ![0, 1] bcast_S1x256_S20000x256_0_1 R j = R (ix2 0 (j 1)) :=
  congrArg R (funext fun a => Fin.ext (by match a with | ⟨0, _⟩ => rfl | ⟨1, _⟩ => rfl))

theorem dense512_eq (A X : 𝔽 S20000x512 .f32) (Wn Ws : 𝔽 S512x256 .f32) (b : 𝔽 S256 .f32) :
    dense512 A X Wn Ws b = SageDense.layer (M := 20000) (K := 512) (N := 256) A X Wn Ws (biasRow b) :=
  SageDense.host_eq _ rfl A X Wn Ws _ _ (biasRow b) (fun j => rowRepeat_apply (biasRow b) j) (fun _ => Ideal.ofBits_zero_f32)
theorem dense256_eq (A X : 𝔽 S20000x256 .f32) (Wn Ws : 𝔽 S256x256 .f32) (b : 𝔽 S256 .f32) :
    dense256 A X Wn Ws b = SageDense.layer (M := 20000) (K := 256) (N := 256) A X Wn Ws (biasRow b) :=
  SageDense.host_eq _ rfl A X Wn Ws _ _ (biasRow b) (fun j => rowRepeat_apply (biasRow b) j) (fun _ => Ideal.ofBits_zero_f32)

/-! ## The mean over each graph's nodes -/

def graphCol (g : IVec S20000 32) : IVec S20000x1 32 := broadcastInDim S20000x1 ![0] bcast_S20000_S20000x1_0 g
/-- Each graph's number of nodes, clamped from below by one. -/
def graphCnt (g : IVec S20000 32) : 𝔽 S16 .f32 :=
  maximumf (Host.scatterAdd scatter_S16_S20000x1_S20000_n_0_0_1
      (broadcastInDim S16 ![] bcast_S_S16 (constant S_ .f32 ZERO)) (graphCol g)
      (broadcastInDim S20000 ![] bcast_S_S20000 (constant S_ .f32 ONE)))
    (broadcastInDim S16 ![] bcast_S_S16 (constant S_ .f32 ONE))
def graphCntInv (g : IVec S20000 32) : 𝔽 S16 .f32 :=
  Host.divf (broadcastInDim S16 ![] bcast_S_S16 (constant S_ .f32 ONE)) (graphCnt g)
/-- The sum of the node rows of each graph. -/
def graphSum (h : 𝔽 S20000x256 .f32) (g : IVec S20000 32) : 𝔽 S16x256 .f32 :=
  Host.scatterAdd scatter_S16x256_S20000x1_S20000x256_1_0_0_1
    (broadcastInDim S16x256 ![] bcast_S_S16x256 (constant S_ .f32 ZERO)) (graphCol g) h
def poolDiv (h : 𝔽 S20000x256 .f32) (g : IVec S20000 32) : 𝔽 S16x256 .f32 :=
  Host.divf (graphSum h g)
    (broadcastInDim S16x256 ![0, 1] bcast_S16x1_S16x256_0_1 (broadcastInDim S16x1 ![0] bcast_S16_S16x1_0 (graphCnt g)))
def poolMul (h : 𝔽 S20000x256 .f32) (g : IVec S20000 32) : 𝔽 S16x256 .f32 :=
  mulf (graphSum h g)
    (broadcastInDim S16x256 ![0, 1] bcast_S16x1_S16x256_0_1 (broadcastInDim S16x1 ![0] bcast_S16_S16x1_0 (graphCntInv g)))

theorem poolMul_eq (h : 𝔽 S20000x256 .f32) (g : IVec S20000 32) : poolMul h g = poolDiv h g :=
  Reciprocal.scale_bcast_eq_divide _ _ _ _ _ _ _ (fun _ => Reciprocal.constant_one (s := S_) _)
    (Reciprocal.one_le_clamp _ _ (fun _ => Reciprocal.constant_one (s := S_) _))

/-! ## The classifier head -/

def head (p : 𝔽 S16x256 .f32) (fc1w : 𝔽 S256x128 .f32) (fc1b : 𝔽 S128 .f32) (fc2w : 𝔽 S128x2 .f32) (fc2b : 𝔽 S2 .f32) :
    𝔽 S16x2 .f32 :=
  addf (Host.dotGeneral dot_S16x128_S128x2_S16x2_1_0_0_1_n_n none
      (maximumf (addf (Host.dotGeneral dot_S16x256_S256x128_S16x128_1_0_0_1_n_n none p fc1w)
          (broadcastInDim S16x128 ![0, 1] bcast_S1x128_S16x128_0_1 (broadcastInDim S1x128 ![1] bcast_S128_S1x128_1 fc1b)))
        (broadcastInDim S16x128 ![] bcast_S_S16x128 (constant S_ .f32 ZERO))) fc2w)
    (broadcastInDim S16x2 ![0, 1] bcast_S1x2_S16x2_0_1 (broadcastInDim S1x2 ![1] bcast_S2_S1x2_1 fc2b))

/-! ## The whole network -/

/-- The result as one function of the thirteen argument arrays. -/
def result (x : 𝔽 S20000x512 .f32) (ei : IVec S2x160000 32) (g : IVec S20000 32)
    (W1n W1s : 𝔽 S512x256 .f32) (b1 : 𝔽 S256 .f32) (W2n W2s : 𝔽 S256x256 .f32) (b2 : 𝔽 S256 .f32)
    (fc1w : 𝔽 S256x128 .f32) (fc1b : 𝔽 S128 .f32) (fc2w : 𝔽 S128x2 .f32) (fc2b : 𝔽 S2 .f32) : 𝔽 S16x2 .f32 :=
  head (poolDiv (dense256 (meanDiv256 (dense512 (meanDiv512 x (srcRaw ei) (dstRaw ei)) x W1n W1s b1) (srcRaw ei) (dstRaw ei))
      (dense512 (meanDiv512 x (srcRaw ei) (dstRaw ei)) x W1n W1s b1) W2n W2s b2) g) fc1w fc1b fc2w fc2b

end Cert.Pieces

end
-- ==== Proof.KernelFold.lean ====
/-
  The idealized kernel's result, read back through its seven segments to the argument arrays.

  The first stretch of host operations computes the edge lists, the reciprocal of the clamped in-degree
  and the first mean over neighbours (multiplying by the reciprocal), and reshapes the first bias to a
  row. The first region leaves the first hidden layer; the second stretch computes the second mean from
  it, reusing the edge lists and the reciprocal of the first stretch; the second region leaves the second
  hidden layer; the last three stretches pool it per graph (multiplying by the reciprocal of the clamped
  node count) and apply the classifier head. Every other buffer is carried through unchanged.

  Multiplying by the reciprocal of a count clamped from below by one is dividing by it, and a region's
  array is the dense layer of its entry arrays, so the result is the network `Pieces.result` of the
  thirteen argument arrays.
-/
import proofs.«173368_j4801773437763_1_alg».proof.Proof.Gen.KernelIdeal.Frame
import proofs.«173368_j4801773437763_1_alg».proof.Proof.Pieces
import Idealize.ShloMosaic.Lib.StableHlo.Run
import Idealize.ShloMosaic.Lib.ValueLayout

set_option maxRecDepth 16384

noncomputable section

namespace Cert.KernelIdeal.Fold

open Idealize.ShloMosaic Idealize.ShloMosaic.TcCoe Idealize.SL.Sem Idealize.ShloMosaic.StableHlo
open Idealize.ShloMosaic.ValueIdx
open Cert.KernelIdeal Cert.KernelIdeal.Gen

variable (m : (ℓ : Loc nD τ sig) → Buf (Elt Ideal) ℓ) (ρ : Dev nD → PrngReg) (c : Dev nD)

/-! ## A bias vector reshaped to a row is the vector broadcast to a row -/

theorem reshape_eq_biasRow (b : FVec Ideal S256 .f32) :
    shapeCast S1x256 b shapeCasts_S256_S1x256 = Cert.Pieces.biasRow b := by
  funext j
  obtain ⟨u, i, rfl⟩ : ∃ (u : Fin 1) (i : Fin 256), j = ix2 u i := ⟨j 0, j 1, eq_ix2 j⟩
  refine (shapeCast_a_1a_apply (a := 256) b shapeCasts_S256_S1x256 u i).trans ?_
  exact congrArg b (funext fun a => Fin.ext (by match a with | ⟨0, _⟩ => rfl))

/-! ## After the first stretch of host operations -/

theorem src_eq : W1 m ρ c (Proc.devRef .tc main_v1) = Cert.Pieces.srcRaw (m ((c.tc : Thread nD τ).loc main_arg1)) := by
  show StableHlo.after hostOps0 (W0 m ρ c) (Proc.devRef .tc main_v1) = _
  after_results_simp
  rfl
theorem dst_eq : W1 m ρ c (Proc.devRef .tc main_v3) = Cert.Pieces.dstRaw (m ((c.tc : Thread nD τ).loc main_arg1)) := by
  show StableHlo.after hostOps0 (W0 m ρ c) (Proc.devRef .tc main_v3) = _
  after_results_simp
  rfl
theorem inv_eq : W1 m ρ c (Proc.devRef .tc main_v11)
    = Cert.Pieces.degInv (Cert.Pieces.dstRaw (m ((c.tc : Thread nD τ).loc main_arg1))) := by
  show StableHlo.after hostOps0 (W0 m ρ c) (Proc.devRef .tc main_v11) = _
  after_results_simp
  rfl
theorem aggr1_eq : W1 m ρ c (Proc.devRef .tc main_v24)
    = Cert.Pieces.meanMul512 (m ((c.tc : Thread nD τ).loc main_arg0))
        (Cert.Pieces.srcRaw (m ((c.tc : Thread nD τ).loc main_arg1))) (Cert.Pieces.dstRaw (m ((c.tc : Thread nD τ).loc main_arg1)))
        (Cert.Pieces.degInv (Cert.Pieces.dstRaw (m ((c.tc : Thread nD τ).loc main_arg1)))) := by
  show StableHlo.after hostOps0 (W0 m ρ c) (Proc.devRef .tc main_v24) = _
  after_results_simp
  rfl
theorem bias1_eq : W1 m ρ c (Proc.devRef .tc main_v25) = Cert.Pieces.biasRow (m ((c.tc : Thread nD τ).loc main_arg5)) := by
  show StableHlo.after hostOps0 (W0 m ρ c) (Proc.devRef .tc main_v25) = _
  after_results_simp
  exact reshape_eq_biasRow _

/-! An argument array is not written by the first stretch. -/

theorem arg0_at1 : W1 m ρ c (Proc.devRef .tc main_arg0) = m ((c.tc : Thread nD τ).loc main_arg0) := by
  show StableHlo.after hostOps0 (W0 m ρ c) (Proc.devRef .tc main_arg0) = _
  after_results_simp
theorem arg2_at1 : W1 m ρ c (Proc.devRef .tc main_arg2) = m ((c.tc : Thread nD τ).loc main_arg2) := by
  show StableHlo.after hostOps0 (W0 m ρ c) (Proc.devRef .tc main_arg2) = _
  after_results_simp
theorem arg3_at1 : W1 m ρ c (Proc.devRef .tc main_arg3) = m ((c.tc : Thread nD τ).loc main_arg3) := by
  show StableHlo.after hostOps0 (W0 m ρ c) (Proc.devRef .tc main_arg3) = _
  after_results_simp
theorem arg4_at1 : W1 m ρ c (Proc.devRef .tc main_arg4) = m ((c.tc : Thread nD τ).loc main_arg4) := by
  show StableHlo.after hostOps0 (W0 m ρ c) (Proc.devRef .tc main_arg4) = _
  after_results_simp
theorem arg6_at1 : W1 m ρ c (Proc.devRef .tc main_arg6) = m ((c.tc : Thread nD τ).loc main_arg6) := by
  show StableHlo.after hostOps0 (W0 m ρ c) (Proc.devRef .tc main_arg6) = _
  after_results_simp
theorem arg7_at1 : W1 m ρ c (Proc.devRef .tc main_arg7) = m ((c.tc : Thread nD τ).loc main_arg7) := by
  show StableHlo.after hostOps0 (W0 m ρ c) (Proc.devRef .tc main_arg7) = _
  after_results_simp
theorem arg8_at1 : W1 m ρ c (Proc.devRef .tc main_arg8) = m ((c.tc : Thread nD τ).loc main_arg8) := by
  show StableHlo.after hostOps0 (W0 m ρ c) (Proc.devRef .tc main_arg8) = _
  after_results_simp
theorem arg9_at1 : W1 m ρ c (Proc.devRef .tc main_arg9) = m ((c.tc : Thread nD τ).loc main_arg9) := by
  show StableHlo.after hostOps0 (W0 m ρ c) (Proc.devRef .tc main_arg9) = _
  after_results_simp
theorem arg10_at1 : W1 m ρ c (Proc.devRef .tc main_arg10) = m ((c.tc : Thread nD τ).loc main_arg10) := by
  show StableHlo.after hostOps0 (W0 m ρ c) (Proc.devRef .tc main_arg10) = _
  after_results_simp
theorem arg11_at1 : W1 m ρ c (Proc.devRef .tc main_arg11) = m ((c.tc : Thread nD τ).loc main_arg11) := by
  show StableHlo.after hostOps0 (W0 m ρ c) (Proc.devRef .tc main_arg11) = _
  after_results_simp
theorem arg12_at1 : W1 m ρ c (Proc.devRef .tc main_arg12) = m ((c.tc : Thread nD τ).loc main_arg12) := by
  show StableHlo.after hostOps0 (W0 m ρ c) (Proc.devRef .tc main_arg12) = _
  after_results_simp

/-! ## The first hidden layer: the first region's array -/

/-- The first hidden layer as a function of the arguments. -/
def hidden1 : FVec Ideal Cert.ReferenceIdeal.S20000x256 .f32 :=
  (Cert.Pieces.dense512 (Cert.Pieces.meanDiv512 (m ((c.tc : Thread nD τ).loc main_arg0)) (Cert.Pieces.srcRaw (m ((c.tc : Thread nD τ).loc main_arg1))) (Cert.Pieces.dstRaw (m ((c.tc : Thread nD τ).loc main_arg1)))) (m ((c.tc : Thread nD τ).loc main_arg0)) (m ((c.tc : Thread nD τ).loc main_arg3)) (m ((c.tc : Thread nD τ).loc main_arg4)) (m ((c.tc : Thread nD τ).loc main_arg5)))
/-- The second hidden layer as a function of the arguments. -/
def hidden2 : FVec Ideal Cert.ReferenceIdeal.S20000x256 .f32 :=
  (Cert.Pieces.dense256 (Cert.Pieces.meanDiv256 (hidden1 m c) (Cert.Pieces.srcRaw (m ((c.tc : Thread nD τ).loc main_arg1))) (Cert.Pieces.dstRaw (m ((c.tc : Thread nD τ).loc main_arg1)))) (hidden1 m c) (m ((c.tc : Thread nD τ).loc main_arg6)) (m ((c.tc : Thread nD τ).loc main_arg7)) (m ((c.tc : Thread nD τ).loc main_arg8)))

/-- What the first region leaves in its output array, given that a region's array is the dense layer of its
    entry arrays. -/
theorem hidden1_eq
    (hR0 : (dat0 (F := Ideal) (V1 m ρ) c).arrAt 5 cfg0.N
      = SageDense.layer (M := 20000) (K := 512) (N := 256) (V1 m ρ c main_v24) (V1 m ρ c main_arg0) (V1 m ρ c main_arg3)
          (V1 m ρ c main_arg4) (V1 m ρ c main_v25)) :
    W2 m ρ c (Proc.devRef .tc main_v26) = hidden1 m c := by
  refine ((W2_arr m ρ c 5).trans hR0).trans ?_
  rw [show V1 m ρ c main_v24 = _ from aggr1_eq m ρ c, show V1 m ρ c main_v25 = _ from bias1_eq m ρ c,
    show V1 m ρ c main_arg0 = _ from arg0_at1 m ρ c,
    show V1 m ρ c main_arg3 = _ from arg3_at1 m ρ c,
    show V1 m ρ c main_arg4 = _ from arg4_at1 m ρ c]
  rw [Cert.Pieces.meanMul512_eq]
  exact (Cert.Pieces.dense512_eq _ _ _ _ _).symm

/-! A buffer that is not one of the first region's arrays passes through the region unchanged. -/

theorem v1_thru1 : W2 m ρ c (Proc.devRef .tc main_v1) = W1 m ρ c (Proc.devRef .tc main_v1) := W2_of_ne m ρ c main_v1 (by decide)
theorem v3_thru1 : W2 m ρ c (Proc.devRef .tc main_v3) = W1 m ρ c (Proc.devRef .tc main_v3) := W2_of_ne m ρ c main_v3 (by decide)
theorem v11_thru1 : W2 m ρ c (Proc.devRef .tc main_v11) = W1 m ρ c (Proc.devRef .tc main_v11) := W2_of_ne m ρ c main_v11 (by decide)
theorem arg2_thru1 : W2 m ρ c (Proc.devRef .tc main_arg2) = W1 m ρ c (Proc.devRef .tc main_arg2) := W2_of_ne m ρ c main_arg2 (by decide)
theorem arg6_thru1 : W2 m ρ c (Proc.devRef .tc main_arg6) = W1 m ρ c (Proc.devRef .tc main_arg6) := W2_of_ne m ρ c main_arg6 (by decide)
theorem arg7_thru1 : W2 m ρ c (Proc.devRef .tc main_arg7) = W1 m ρ c (Proc.devRef .tc main_arg7) := W2_of_ne m ρ c main_arg7 (by decide)
theorem arg8_thru1 : W2 m ρ c (Proc.devRef .tc main_arg8) = W1 m ρ c (Proc.devRef .tc main_arg8) := W2_of_ne m ρ c main_arg8 (by decide)
theorem arg9_thru1 : W2 m ρ c (Proc.devRef .tc main_arg9) = W1 m ρ c (Proc.devRef .tc main_arg9) := W2_of_ne m ρ c main_arg9 (by decide)
theorem arg10_thru1 : W2 m ρ c (Proc.devRef .tc main_arg10) = W1 m ρ c (Proc.devRef .tc main_arg10) := W2_of_ne m ρ c main_arg10 (by decide)
theorem arg11_thru1 : W2 m ρ c (Proc.devRef .tc main_arg11) = W1 m ρ c (Proc.devRef .tc main_arg11) := W2_of_ne m ρ c main_arg11 (by decide)
theorem arg12_thru1 : W2 m ρ c (Proc.devRef .tc main_arg12) = W1 m ρ c (Proc.devRef .tc main_arg12) := W2_of_ne m ρ c main_arg12 (by decide)

/-! ## After the second stretch of host operations -/

theorem aggr2_eq (h1 : W2 m ρ c (Proc.devRef .tc main_v26) = hidden1 m c) :
    W3 m ρ c (Proc.devRef .tc main_v39) = Cert.Pieces.meanDiv256 (hidden1 m c) (Cert.Pieces.srcRaw (m ((c.tc : Thread nD τ).loc main_arg1))) (Cert.Pieces.dstRaw (m ((c.tc : Thread nD τ).loc main_arg1))) := by
  have e : W3 m ρ c (Proc.devRef .tc main_v39)
      = Cert.Pieces.meanMul256 (W2 m ρ c (Proc.devRef .tc main_v26)) (W2 m ρ c (Proc.devRef .tc main_v1))
          (W2 m ρ c (Proc.devRef .tc main_v3)) (W2 m ρ c (Proc.devRef .tc main_v11)) := by
    show StableHlo.after hostOps1 (W2 m ρ c) (Proc.devRef .tc main_v39) = _
    after_results_simp
    rfl
  rw [e, h1, v1_thru1, v3_thru1, v11_thru1, src_eq, dst_eq, inv_eq]
  exact Cert.Pieces.meanMul256_eq _ _ _
theorem bias2_eq : W3 m ρ c (Proc.devRef .tc main_v40) = Cert.Pieces.biasRow (m ((c.tc : Thread nD τ).loc main_arg8)) := by
  have e : W3 m ρ c (Proc.devRef .tc main_v40)
      = shapeCast S1x256 (W2 m ρ c (Proc.devRef .tc main_arg8)) shapeCasts_S256_S1x256 := by
    show StableHlo.after hostOps1 (W2 m ρ c) (Proc.devRef .tc main_v40) = _
    after_results_simp
    rfl
  rw [e, arg8_thru1, arg8_at1]
  exact reshape_eq_biasRow _

/-! A buffer the second stretch does not write. -/

theorem v26_thru2 : W3 m ρ c (Proc.devRef .tc main_v26) = W2 m ρ c (Proc.devRef .tc main_v26) := by
  show StableHlo.after hostOps1 (W2 m ρ c) (Proc.devRef .tc main_v26) = _
  after_results_simp
theorem arg2_thru2 : W3 m ρ c (Proc.devRef .tc main_arg2) = W2 m ρ c (Proc.devRef .tc main_arg2) := by
  show StableHlo.after hostOps1 (W2 m ρ c) (Proc.devRef .tc main_arg2) = _
  after_results_simp
theorem arg6_thru2 : W3 m ρ c (Proc.devRef .tc main_arg6) = W2 m ρ c (Proc.devRef .tc main_arg6) := by
  show StableHlo.after hostOps1 (W2 m ρ c) (Proc.devRef .tc main_arg6) = _
  after_results_simp
theorem arg7_thru2 : W3 m ρ c (Proc.devRef .tc main_arg7) = W2 m ρ c (Proc.devRef .tc main_arg7) := by
  show StableHlo.after hostOps1 (W2 m ρ c) (Proc.devRef .tc main_arg7) = _
  after_results_simp
theorem arg9_thru2 : W3 m ρ c (Proc.devRef .tc main_arg9) = W2 m ρ c (Proc.devRef .tc main_arg9) := by
  show StableHlo.after hostOps1 (W2 m ρ c) (Proc.devRef .tc main_arg9) = _
  after_results_simp
theorem arg10_thru2 : W3 m ρ c (Proc.devRef .tc main_arg10) = W2 m ρ c (Proc.devRef .tc main_arg10) := by
  show StableHlo.after hostOps1 (W2 m ρ c) (Proc.devRef .tc main_arg10) = _
  after_results_simp
theorem arg11_thru2 : W3 m ρ c (Proc.devRef .tc main_arg11) = W2 m ρ c (Proc.devRef .tc main_arg11) := by
  show StableHlo.after hostOps1 (W2 m ρ c) (Proc.devRef .tc main_arg11) = _
  after_results_simp
theorem arg12_thru2 : W3 m ρ c (Proc.devRef .tc main_arg12) = W2 m ρ c (Proc.devRef .tc main_arg12) := by
  show StableHlo.after hostOps1 (W2 m ρ c) (Proc.devRef .tc main_arg12) = _
  after_results_simp

/-! An argument array at the second region's entry is as launched. -/

theorem arg2_at3 : W3 m ρ c (Proc.devRef .tc main_arg2) = m ((c.tc : Thread nD τ).loc main_arg2) :=
  (arg2_thru2 m ρ c).trans ((arg2_thru1 m ρ c).trans (arg2_at1 m ρ c))
theorem arg6_at3 : W3 m ρ c (Proc.devRef .tc main_arg6) = m ((c.tc : Thread nD τ).loc main_arg6) :=
  (arg6_thru2 m ρ c).trans ((arg6_thru1 m ρ c).trans (arg6_at1 m ρ c))
theorem arg7_at3 : W3 m ρ c (Proc.devRef .tc main_arg7) = m ((c.tc : Thread nD τ).loc main_arg7) :=
  (arg7_thru2 m ρ c).trans ((arg7_thru1 m ρ c).trans (arg7_at1 m ρ c))
theorem arg9_at3 : W3 m ρ c (Proc.devRef .tc main_arg9) = m ((c.tc : Thread nD τ).loc main_arg9) :=
  (arg9_thru2 m ρ c).trans ((arg9_thru1 m ρ c).trans (arg9_at1 m ρ c))
theorem arg10_at3 : W3 m ρ c (Proc.devRef .tc main_arg10) = m ((c.tc : Thread nD τ).loc main_arg10) :=
  (arg10_thru2 m ρ c).trans ((arg10_thru1 m ρ c).trans (arg10_at1 m ρ c))
theorem arg11_at3 : W3 m ρ c (Proc.devRef .tc main_arg11) = m ((c.tc : Thread nD τ).loc main_arg11) :=
  (arg11_thru2 m ρ c).trans ((arg11_thru1 m ρ c).trans (arg11_at1 m ρ c))
theorem arg12_at3 : W3 m ρ c (Proc.devRef .tc main_arg12) = m ((c.tc : Thread nD τ).loc main_arg12) :=
  (arg12_thru2 m ρ c).trans ((arg12_thru1 m ρ c).trans (arg12_at1 m ρ c))

/-! ## The second hidden layer: the second region's array -/

theorem hidden2_eq (h1 : W2 m ρ c (Proc.devRef .tc main_v26) = hidden1 m c)
    (hR1 : (dat1 (F := Ideal) (V3 m ρ) c).arrAt 5 cfg1.N
      = SageDense.layer (M := 20000) (K := 256) (N := 256) (V3 m ρ c main_v39) (V3 m ρ c main_v26) (V3 m ρ c main_arg6)
          (V3 m ρ c main_arg7) (V3 m ρ c main_v40)) :
    W4 m ρ c (Proc.devRef .tc main_v41) = hidden2 m c := by
  refine ((W4_arr m ρ c 5).trans hR1).trans ?_
  rw [show V3 m ρ c main_v39 = _ from aggr2_eq m ρ c h1, show V3 m ρ c main_v40 = _ from bias2_eq m ρ c,
    show V3 m ρ c main_v26 = _ from (v26_thru2 m ρ c).trans h1,
    show V3 m ρ c main_arg6 = _ from arg6_at3 m ρ c,
    show V3 m ρ c main_arg7 = _ from arg7_at3 m ρ c]
  exact (Cert.Pieces.dense256_eq _ _ _ _ _).symm

/-! An argument array at the second region's exit is as launched. -/

theorem arg2_at4 : W4 m ρ c (Proc.devRef .tc main_arg2) = m ((c.tc : Thread nD τ).loc main_arg2) :=
  (W4_of_ne m ρ c main_arg2 (by decide)).trans (arg2_at3 m ρ c)
theorem arg9_at4 : W4 m ρ c (Proc.devRef .tc main_arg9) = m ((c.tc : Thread nD τ).loc main_arg9) :=
  (W4_of_ne m ρ c main_arg9 (by decide)).trans (arg9_at3 m ρ c)
theorem arg10_at4 : W4 m ρ c (Proc.devRef .tc main_arg10) = m ((c.tc : Thread nD τ).loc main_arg10) :=
  (W4_of_ne m ρ c main_arg10 (by decide)).trans (arg10_at3 m ρ c)
theorem arg11_at4 : W4 m ρ c (Proc.devRef .tc main_arg11) = m ((c.tc : Thread nD τ).loc main_arg11) :=
  (W4_of_ne m ρ c main_arg11 (by decide)).trans (arg11_at3 m ρ c)
theorem arg12_at4 : W4 m ρ c (Proc.devRef .tc main_arg12) = m ((c.tc : Thread nD τ).loc main_arg12) :=
  (W4_of_ne m ρ c main_arg12 (by decide)).trans (arg12_at3 m ρ c)

/-! ## The pooling and the classifier head -/

/-- The program's result is the network of the thirteen argument arrays. -/
theorem result_eq (h2 : W4 m ρ c (Proc.devRef .tc main_v41) = hidden2 m c) :
    W7 m ρ c (Proc.devRef .tc main_v64)
      = Cert.Pieces.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) := by
  have e : W7 m ρ c (Proc.devRef .tc main_v64)
      = Cert.Pieces.head (Cert.Pieces.poolMul (W4 m ρ c (Proc.devRef .tc main_v41)) (W4 m ρ c (Proc.devRef .tc main_arg2)))
          (W4 m ρ c (Proc.devRef .tc main_arg9)) (W4 m ρ c (Proc.devRef .tc main_arg10))
          (W4 m ρ c (Proc.devRef .tc main_arg11)) (W4 m ρ c (Proc.devRef .tc main_arg12)) := by
    show StableHlo.after hostOps2_2 (StableHlo.after hostOps2_1 (StableHlo.after hostOps2 (W4 m ρ c))) (Proc.devRef .tc main_v64) = _
    after_results_simp
    rfl
  rw [e, h2, arg2_at4, arg9_at4, arg10_at4, arg11_at4, arg12_at4, Cert.Pieces.poolMul_eq]
  rfl

end Cert.KernelIdeal.Fold

end
-- ==== Proof.Region0.lean ====
/-
  The first dense layer of the network, as the tiled kernel computes it, is the dense layer of its five
  whole arrays.

  The 20000 rows are cut into ten blocks of 2000. At block t the kernel reads rows 2000 t … 2000 t + 1999 of
  the aggregated features and of the node features (512 columns each), the two whole 512 × 256 weights and
  the whole 1 × 256 bias row, and writes rows 2000 t … 2000 t + 1999 of the 20000 × 256 result. Entry (r, n)
  of the layer depends on row r of the two inputs, column n of the two weights and entry n of the bias only,
  so what block t writes is exactly rows 2000 t … 2000 t + 1999 of the layer of the whole arrays; the ten
  blocks cover every row, so the result array ends as that layer.
-/
import proofs.«173368_j4801773437763_1_alg».proof.Proof.Gen.KernelIdeal.Frame
import proofs.«173368_j4801773437763_1_alg».proof.Proof.LibSageDense
import Idealize.ShloMosaic.Lib.Pipeline.Value
import Idealize.ShloMosaic.Lib.ValueIdx
import Idealize.ShloMosaic.Lib.ValueLayout

noncomputable section

namespace Cert.KernelIdeal.Region0

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of what the body stores

The body multiplies its block of rows of each input by the whole weight of that input, adds the two products
and the bias row, and rectifies. Read at entry (r, n) of the block this is the dense layer's entry formula on
row r of the two input blocks, column n of the two weights and entry n of the bias: rounding to the narrow
format is the identity on extended reals, and a product into an accumulator of zeros is the plain finite sum. -/

/-- The body's contraction is the plain one: the left operand's columns against the right operand's rows. -/
theorem dot_plain : dot_S2000x512_S512x256_S2000x256_1_0_0_1_n_n = DotDims.plain 2000 512 256 := rfl

/-- The stored value at an entry of the block, as the layer's entry formula. -/
theorem payload_apply (x0 x1 : Vec Ideal S2000x512 .f32) (x2 x3 : Vec Ideal S512x256 .f32)
    (x4 : Vec Ideal S1x256 .f32) (y : S2000x256.Idx) :
    Gen.k0_pay1 x0 x1 x2 x3 x4 y
      = SageDense.entry (fun k => x0 (ix2 (y 0) k)) (fun k => x1 (ix2 (y 0) k)) (fun k => x2 (ix2 k (y 1)))
          (fun k => x3 (ix2 k (y 1))) (x4 (ix2 0 (y 1))) := by
  obtain ⟨p, q, rfl⟩ : ∃ (p : Fin 2000) (q : Fin 256), y = ix2 p q := ⟨y 0, y 1, eq_ix2 y⟩
  unfold Gen.k0_pay1
  simp only [shapeCast_self]
  rw [dot_plain]
  show max ((FloatOps.matmul (F := Ideal) (DotDims.plain 2000 512 256) none _ _ _ (ix2 p q)
      + FloatOps.matmul (F := Ideal) (DotDims.plain 2000 512 256) none _ _ _ (ix2 p q))
      + broadcastTo S2000x256 x4 broadcasts_S1x256_S2000x256 (ix2 p q)) (Ideal.ofBits .f32 0x00000000#32) = _
  rw [PlainDot.matmul_zero_apply, PlainDot.matmul_zero_apply, broadcastTo_1b_ab_apply, Ideal.ofBits_zero_f32]
  rfl

/-- The same entry as an entry of the layer of five whole arrays, once each block entry the formula reads is
    known to be the whole array's entry in the matching row or column. -/
theorem payload_eq_layer (A X : FVec Ideal ⟨2, ![20000, 512]⟩ .f32) (Wn Ws : FVec Ideal ⟨2, ![512, 256]⟩ .f32)
    (b : FVec Ideal ⟨2, ![1, 256]⟩ .f32)
    (x0 x1 : Vec Ideal S2000x512 .f32) (x2 x3 : Vec Ideal S512x256 .f32) (x4 : Vec Ideal S1x256 .f32)
    (y : S2000x256.Idx) (i : S20000x256.Idx)
    (h0 : ∀ k : Fin 512, x0 (ix2 (y 0) k) = A (ix2 (i 0) k))
    (h1 : ∀ k : Fin 512, x1 (ix2 (y 0) k) = X (ix2 (i 0) k))
    (h2 : ∀ k : Fin 512, x2 (ix2 k (y 1)) = Wn (ix2 k (i 1)))
    (h3 : ∀ k : Fin 512, x3 (ix2 k (y 1)) = Ws (ix2 k (i 1)))
    (h4 : x4 (ix2 0 (y 1)) = b (ix2 0 (i 1))) :
    Gen.k0_pay1 x0 x1 x2 x3 x4 y = SageDense.layer (M := 20000) (K := 512) (N := 256) A X Wn Ws b i := by
  rw [payload_apply]
  unfold SageDense.layer
  simp only [h0, h1, h2, h3, h4]

/-! ## The blocks over the grid

Point t of the ten stages rows 2000 t … 2000 t + 1999 of each input and of the output; the weights and
the bias row are staged whole at every point. -/

/-- The zero offsets of a whole-buffer access, as the constant function. -/
theorem hz : (![0, 0] : Fin 2 → Nat) = fun _ => 0 := funext fun a => by fin_cases a <;> rfl

/-- The block indices of the six windows at every point of the grid. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section
variable (V : (c : Dev nD) → (b : Ref sig .tc) → Buf (Elt Ideal) ((c : Thread nD τ).loc b))

/-- The layer of the five arrays as the region finds them. -/
abbrev L (c : Dev nD) : FVec Ideal ⟨2, ![20000, 256]⟩ .f32 :=
  SageDense.layer (M := 20000) (K := 512) (N := 256) (V c main_v24) (V c main_arg0) (V c main_arg3) (V c main_arg4) (V c main_v25)

/-- What point t writes back is rows 2000 t … 2000 t + 1999 of the layer of the whole arrays. -/
theorem flushed_eq (c : Dev nD) (t : Fin cfg0.N) :
    (Gen.dat0 (F := Ideal) V c).flushed 5 t = ((cfg0.win 5).blk t).view.read (Elt Ideal) (L V c) := by
  show (cfg0.win 5).cut (grid0.coords t) ((Gen.dat0 (F := Ideal) V c).after 5 t) = _
  rw [after0_5]
  unfold out0_5
  rw [View.canon_unit_zero hz]
  simp only [View.ld_unit_zero (S := S2000x512) hz, View.ld_unit_zero (S := S512x256) hz, View.ld_unit_zero (S := S1x256) hz]
  obtain ⟨e00, e01, e10, e11, e20, e21, e30, e31, e40, e41, e50, e51⟩ := idx_facts t
  funext j
  show Gen.k0_pay1 (iblk0 V c 0 t) (iblk0 V c 1 t) (iblk0 V c 2 t) (iblk0 V c 3 t) (iblk0 V c 4 t) j
    = L V c (((cfg0.win 5).blk t).view.emb j)
  refine payload_eq_layer (V c main_v24) (V c main_arg0) (V c main_arg3) (V c main_arg4) (V c main_v25) _ _ _ _ _ j _
    (fun k => ?_) (fun k => ?_) (fun k => ?_) (fun k => ?_) ?_
  · show V c main_v24 (((cfg0.win 0).blk t).view.emb (ix2 (j 0) k))
      = V c main_v24 (ix2 ((((cfg0.win 5).blk t).view.emb j) 0) k)
    refine congrArg _ (funext fun a => Fin.ext ?_)
    match a with
    | ⟨0, _⟩ => show win0_0.index t (0 : Fin 2) * 2000 + 1 * (j 0).val = win0_5.index t (0 : Fin 2) * 2000 + 1 * (j 0).val; rw [e00, e50]
    | ⟨1, _⟩ => show win0_0.index t (1 : Fin 2) * 512 + 1 * k.val = k.val; rw [e01]; omega
  · show V c main_arg0 (((cfg0.win 1).blk t).view.emb (ix2 (j 0) k))
      = V c main_arg0 (ix2 ((((cfg0.win 5).blk t).view.emb j) 0) k)
    refine congrArg _ (funext fun a => Fin.ext ?_)
    match a with
    | ⟨0, _⟩ => show win0_1.index t (0 : Fin 2) * 2000 + 1 * (j 0).val = win0_5.index t (0 : Fin 2) * 2000 + 1 * (j 0).val; rw [e10, e50]
    | ⟨1, _⟩ => show win0_1.index t (1 : Fin 2) * 512 + 1 * k.val = k.val; rw [e11]; omega
  · show V c main_arg3 (((cfg0.win 2).blk t).view.emb (ix2 k (j 1)))
      = V c main_arg3 (ix2 k ((((cfg0.win 5).blk t).view.emb j) 1))
    refine congrArg _ (funext fun a => Fin.ext ?_)
    match a with
    | ⟨0, _⟩ => show win0_2.index t (0 : Fin 2) * 512 + 1 * k.val = k.val; rw [e20]; omega
    | ⟨1, _⟩ => show win0_2.index t (1 : Fin 2) * 256 + 1 * (j 1).val = win0_5.index t (1 : Fin 2) * 256 + 1 * (j 1).val; rw [e21, e51]
  · show V c main_arg4 (((cfg0.win 3).blk t).view.emb (ix2 k (j 1)))
      = V c main_arg4 (ix2 k ((((cfg0.win 5).blk t).view.emb j) 1))
    refine congrArg _ (funext fun a => Fin.ext ?_)
    match a with
    | ⟨0, _⟩ => show win0_3.index t (0 : Fin 2) * 512 + 1 * k.val = k.val; rw [e30]; omega
    | ⟨1, _⟩ => show win0_3.index t (1 : Fin 2) * 256 + 1 * (j 1).val = win0_5.index t (1 : Fin 2) * 256 + 1 * (j 1).val; rw [e31, e51]
  · show V c main_v25 (((cfg0.win 4).blk t).view.emb (ix2 (0 : Fin 1) (j 1)))
      = V c main_v25 (ix2 (0 : Fin 1) ((((cfg0.win 5).blk t).view.emb j) 1))
    refine congrArg _ (funext fun a => Fin.ext ?_)
    match a with
    | ⟨0, _⟩ => show win0_4.index t (0 : Fin 2) * 1 + 1 * (0 : Fin 1).val = (0 : Fin 1).val; rw [e40]; omega
    | ⟨1, _⟩ => show win0_4.index t (1 : Fin 2) * 256 + 1 * (j 1).val = win0_5.index t (1 : Fin 2) * 256 + 1 * (j 1).val; rw [e41, e51]

/-- An entry of the output array lies in point t's block iff its row is one of rows 2000 t … 2000 t + 1999
    (and its column any of the 256). -/
theorem mem_blk (t : Fin cfg0.N) (i : S20000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v26).slice (win0_5.rect t)).set ↔ _
  rw [View.set_slice_whole, Rect.mem_set_unit]
  exact Iff.rfl

/-- Row r of the output is written back by point r / 2000. -/
theorem cover (i : S20000x256.Idx) :
    ∃ t : Fin cfg0.N, (cfg0.win 5).flush t = true ∧ i ∈ ((cfg0.win 5).blk t).view.set := by
  have hi0 : (i 0).val < 20000 := (i 0).isLt
  have hi1 : (i 1).val < 256 := (i 1).isLt
  have hN : cfg0.N = 10 := N_0
  refine ⟨⟨(i 0).val / 2000, by rw [hN]; omega⟩, flush0_5 _, ?_⟩
  rw [mem_blk]
  obtain ⟨-, -, -, -, -, -, -, -, -, -, e50, e51⟩ := idx_facts ⟨(i 0).val / 2000, by rw [hN]; omega⟩
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 256 ≤ (i 1).val ∧ (i 1).val < win0_5.index _ (1 : Fin 2) * 256 + 256
    rw [e51]; omega

/-- After the ten points the output array is the layer of the five arrays as the region found them. -/
theorem array_eq (c : Dev nD) :
    (Gen.dat0 (F := Ideal) V c).arrAt 5 cfg0.N
      = SageDense.layer (M := 20000) (K := 512) (N := 256) (V c main_v24) (V c main_arg0) (V c main_arg3) (V c main_arg4) (V c main_v25) :=
  (Gen.dat0 (F := Ideal) V c).arrAt_eq_of_cover 5 (L V c) (fun t _ => flushed_eq V c t) cover

end

end Cert.KernelIdeal.Region0

end
-- ==== Proof.Region1.lean ====
/-
  The second dense layer of the network, as the tiled kernel computes it, is the dense layer of its five
  whole arrays.

  The 20000 rows are cut into ten blocks of 2000. At block t the kernel reads rows 2000 t … 2000 t + 1999 of
  the aggregated features and of the first layer's output (256 columns each), the two whole 256 × 256 weights
  and the whole 1 × 256 bias row, and writes rows 2000 t … 2000 t + 1999 of the 20000 × 256 result. Entry
  (r, n) of the layer depends on row r of the two inputs, column n of the two weights and entry n of the bias
  only, so what block t writes is exactly rows 2000 t … 2000 t + 1999 of the layer of the whole arrays; the
  ten blocks cover every row, so the result array ends as that layer.
-/
import proofs.«173368_j4801773437763_1_alg».proof.Proof.Gen.KernelIdeal.Frame
import proofs.«173368_j4801773437763_1_alg».proof.Proof.LibSageDense
import Idealize.ShloMosaic.Lib.Pipeline.Value
import Idealize.ShloMosaic.Lib.ValueIdx
import Idealize.ShloMosaic.Lib.ValueLayout

noncomputable section

namespace Cert.KernelIdeal.Region1

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of what the body stores

The body multiplies its block of rows of each input by the whole weight of that input, adds the two products
and the bias row, and rectifies. Read at entry (r, n) of the block this is the dense layer's entry formula on
row r of the two input blocks, column n of the two weights and entry n of the bias: rounding to the narrow
format is the identity on extended reals, and a product into an accumulator of zeros is the plain finite sum. -/

/-- The body's contraction is the plain one: the left operand's columns against the right operand's rows. -/
theorem dot_plain : dot_S2000x256_S256x256_S2000x256_1_0_0_1_n_n = DotDims.plain 2000 256 256 := rfl

/-- The stored value at an entry of the block, as the layer's entry formula. -/
theorem payload_apply (x0 x1 : Vec Ideal S2000x256 .f32) (x2 x3 : Vec Ideal S256x256 .f32)
    (x4 : Vec Ideal S1x256 .f32) (y : S2000x256.Idx) :
    Gen.k1_pay1 x0 x1 x2 x3 x4 y
      = SageDense.entry (fun k => x0 (ix2 (y 0) k)) (fun k => x1 (ix2 (y 0) k)) (fun k => x2 (ix2 k (y 1)))
          (fun k => x3 (ix2 k (y 1))) (x4 (ix2 0 (y 1))) := by
  obtain ⟨p, q, rfl⟩ : ∃ (p : Fin 2000) (q : Fin 256), y = ix2 p q := ⟨y 0, y 1, eq_ix2 y⟩
  unfold Gen.k1_pay1
  simp only [shapeCast_self]
  rw [dot_plain]
  show max ((FloatOps.matmul (F := Ideal) (DotDims.plain 2000 256 256) none _ _ _ (ix2 p q)
      + FloatOps.matmul (F := Ideal) (DotDims.plain 2000 256 256) none _ _ _ (ix2 p q))
      + broadcastTo S2000x256 x4 broadcasts_S1x256_S2000x256 (ix2 p q)) (Ideal.ofBits .f32 0x00000000#32) = _
  rw [PlainDot.matmul_zero_apply, PlainDot.matmul_zero_apply, broadcastTo_1b_ab_apply, Ideal.ofBits_zero_f32]
  rfl

/-- The same entry as an entry of the layer of five whole arrays, once each block entry the formula reads is
    known to be the whole array's entry in the matching row or column. -/
theorem payload_eq_layer (A X : FVec Ideal ⟨2, ![20000, 256]⟩ .f32) (Wn Ws : FVec Ideal ⟨2, ![256, 256]⟩ .f32)
    (b : FVec Ideal ⟨2, ![1, 256]⟩ .f32)
    (x0 x1 : Vec Ideal S2000x256 .f32) (x2 x3 : Vec Ideal S256x256 .f32) (x4 : Vec Ideal S1x256 .f32)
    (y : S2000x256.Idx) (i : S20000x256.Idx)
    (h0 : ∀ k : Fin 256, x0 (ix2 (y 0) k) = A (ix2 (i 0) k))
    (h1 : ∀ k : Fin 256, x1 (ix2 (y 0) k) = X (ix2 (i 0) k))
    (h2 : ∀ k : Fin 256, x2 (ix2 k (y 1)) = Wn (ix2 k (i 1)))
    (h3 : ∀ k : Fin 256, x3 (ix2 k (y 1)) = Ws (ix2 k (i 1)))
    (h4 : x4 (ix2 0 (y 1)) = b (ix2 0 (i 1))) :
    Gen.k1_pay1 x0 x1 x2 x3 x4 y = SageDense.layer (M := 20000) (K := 256) (N := 256) A X Wn Ws b i := by
  rw [payload_apply]
  unfold SageDense.layer
  simp only [h0, h1, h2, h3, h4]

/-! ## The blocks over the grid

Point t of the ten stages rows 2000 t … 2000 t + 1999 of each input and of the output; the weights and
the bias row are staged whole at every point. -/

/-- The zero offsets of a whole-buffer access, as the constant function. -/
theorem hz : (![0, 0] : Fin 2 → Nat) = fun _ => 0 := funext fun a => by fin_cases a <;> rfl

/-- The block indices of the six windows at every point of the grid. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- The layer of the five arrays as the region finds them. -/
abbrev L (c : Dev nD) : FVec Ideal ⟨2, ![20000, 256]⟩ .f32 :=
  SageDense.layer (M := 20000) (K := 256) (N := 256) (V c main_v39) (V c main_v26) (V c main_arg6) (V c main_arg7) (V c main_v40)

/-- What point t writes back is rows 2000 t … 2000 t + 1999 of the layer of the whole arrays. -/
theorem flushed_eq (c : Dev nD) (t : Fin cfg1.N) :
    (Gen.dat1 (F := Ideal) V c).flushed 5 t = ((cfg1.win 5).blk t).view.read (Elt Ideal) (L V c) := by
  show (cfg1.win 5).cut (grid1.coords t) ((Gen.dat1 (F := Ideal) V c).after 5 t) = _
  rw [after1_5]
  unfold out1_5
  rw [View.canon_unit_zero hz]
  simp only [View.ld_unit_zero (S := S2000x256) hz, View.ld_unit_zero (S := S256x256) hz, View.ld_unit_zero (S := S1x256) hz]
  obtain ⟨e00, e01, e10, e11, e20, e21, e30, e31, e40, e41, e50, e51⟩ := idx_facts t
  funext j
  show Gen.k1_pay1 (iblk1 V c 0 t) (iblk1 V c 1 t) (iblk1 V c 2 t) (iblk1 V c 3 t) (iblk1 V c 4 t) j
    = L V c (((cfg1.win 5).blk t).view.emb j)
  refine payload_eq_layer (V c main_v39) (V c main_v26) (V c main_arg6) (V c main_arg7) (V c main_v40) _ _ _ _ _ j _
    (fun k => ?_) (fun k => ?_) (fun k => ?_) (fun k => ?_) ?_
  · show V c main_v39 (((cfg1.win 0).blk t).view.emb (ix2 (j 0) k))
      = V c main_v39 (ix2 ((((cfg1.win 5).blk t).view.emb j) 0) k)
    refine congrArg _ (funext fun a => Fin.ext ?_)
    match a with
    | ⟨0, _⟩ => show win1_0.index t (0 : Fin 2) * 2000 + 1 * (j 0).val = win1_5.index t (0 : Fin 2) * 2000 + 1 * (j 0).val; rw [e00, e50]
    | ⟨1, _⟩ => show win1_0.index t (1 : Fin 2) * 256 + 1 * k.val = k.val; rw [e01]; omega
  · show V c main_v26 (((cfg1.win 1).blk t).view.emb (ix2 (j 0) k))
      = V c main_v26 (ix2 ((((cfg1.win 5).blk t).view.emb j) 0) k)
    refine congrArg _ (funext fun a => Fin.ext ?_)
    match a with
    | ⟨0, _⟩ => show win1_1.index t (0 : Fin 2) * 2000 + 1 * (j 0).val = win1_5.index t (0 : Fin 2) * 2000 + 1 * (j 0).val; rw [e10, e50]
    | ⟨1, _⟩ => show win1_1.index t (1 : Fin 2) * 256 + 1 * k.val = k.val; rw [e11]; omega
  · show V c main_arg6 (((cfg1.win 2).blk t).view.emb (ix2 k (j 1)))
      = V c main_arg6 (ix2 k ((((cfg1.win 5).blk t).view.emb j) 1))
    refine congrArg _ (funext fun a => Fin.ext ?_)
    match a with
    | ⟨0, _⟩ => show win1_2.index t (0 : Fin 2) * 256 + 1 * k.val = k.val; rw [e20]; omega
    | ⟨1, _⟩ => show win1_2.index t (1 : Fin 2) * 256 + 1 * (j 1).val = win1_5.index t (1 : Fin 2) * 256 + 1 * (j 1).val; rw [e21, e51]
  · show V c main_arg7 (((cfg1.win 3).blk t).view.emb (ix2 k (j 1)))
      = V c main_arg7 (ix2 k ((((cfg1.win 5).blk t).view.emb j) 1))
    refine congrArg _ (funext fun a => Fin.ext ?_)
    match a with
    | ⟨0, _⟩ => show win1_3.index t (0 : Fin 2) * 256 + 1 * k.val = k.val; rw [e30]; omega
    | ⟨1, _⟩ => show win1_3.index t (1 : Fin 2) * 256 + 1 * (j 1).val = win1_5.index t (1 : Fin 2) * 256 + 1 * (j 1).val; rw [e31, e51]
  · show V c main_v40 (((cfg1.win 4).blk t).view.emb (ix2 (0 : Fin 1) (j 1)))
      = V c main_v40 (ix2 (0 : Fin 1) ((((cfg1.win 5).blk t).view.emb j) 1))
    refine congrArg _ (funext fun a => Fin.ext ?_)
    match a with
    | ⟨0, _⟩ => show win1_4.index t (0 : Fin 2) * 1 + 1 * (0 : Fin 1).val = (0 : Fin 1).val; rw [e40]; omega
    | ⟨1, _⟩ => show win1_4.index t (1 : Fin 2) * 256 + 1 * (j 1).val = win1_5.index t (1 : Fin 2) * 256 + 1 * (j 1).val; rw [e41, e51]

/-- An entry of the output array lies in point t's block iff its row is one of rows 2000 t … 2000 t + 1999
    (and its column any of the 256). -/
theorem mem_blk (t : Fin cfg1.N) (i : S20000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v41).slice (win1_5.rect t)).set ↔ _
  rw [View.set_slice_whole, Rect.mem_set_unit]
  exact Iff.rfl

/-- Row r of the output is written back by point r / 2000. -/
theorem cover (i : S20000x256.Idx) :
    ∃ t : Fin cfg1.N, (cfg1.win 5).flush t = true ∧ i ∈ ((cfg1.win 5).blk t).view.set := by
  have hi0 : (i 0).val < 20000 := (i 0).isLt
  have hi1 : (i 1).val < 256 := (i 1).isLt
  have hN : cfg1.N = 10 := N_1
  refine ⟨⟨(i 0).val / 2000, by rw [hN]; omega⟩, flush1_5 _, ?_⟩
  rw [mem_blk]
  obtain ⟨-, -, -, -, -, -, -, -, -, -, e50, e51⟩ := idx_facts ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e51]; omega

/-- After the ten points the output array is the layer of the five arrays as the region found them. -/
theorem array_eq (c : Dev nD) :
    (Gen.dat1 (F := Ideal) V c).arrAt 5 cfg1.N
      = SageDense.layer (M := 20000) (K := 256) (N := 256) (V c main_v39) (V c main_v26) (V c main_arg6) (V c main_arg7) (V c main_v40) :=
  (Gen.dat1 (F := Ideal) V c).arrAt_eq_of_cover 5 (L V c) (fun t _ => flushed_eq V c t) cover

end

end Cert.KernelIdeal.Region1

end
-- ==== Proof.RefValue.lean ====
/-
  The reference's result is the network of `Pieces.result`: its run ends with the result buffer at the
  composition of its host operations applied to the argument arrays, and that composition, read piece by
  piece, is the mean over neighbours (dividing), the dense layer, twice, the mean over each graph's nodes
  (dividing) and the classifier head.
-/
import proofs.«173368_j4801773437763_1_alg».proof.Proof.Gen.ReferenceIdeal.Run
import proofs.«173368_j4801773437763_1_alg».proof.Proof.Pieces

set_option maxRecDepth 16384

noncomputable section

namespace Cert.ReferenceIdeal.RefValue

open Idealize.ShloMosaic Idealize.ShloMosaic.TcCoe Idealize.SL.Sem Cert.ReferenceIdeal Cert.ReferenceIdeal.Gen

/-- The composed term of the reference's run is the network as a function of the thirteen arguments. -/
theorem result_eq (m : (ℓ : Loc nD τ sig) → Buf (Elt Ideal) ℓ) (c : Dev nD) :
    Cert.ReferenceIdeal.Value.res_main_v76 (F := Ideal) m c
      = Cert.Pieces.result (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) := by
  unfold Cert.ReferenceIdeal.Value.res_main_v76
  rfl

end Cert.ReferenceIdeal.RefValue

end
-- ==== Proof.lean ====
/-
  A two-layer GraphSAGE network with mean aggregation, a mean pool over each graph and a two-layer
  classifier head: the tiled kernel against the plain reference, over the extended reals.

  Both programs gather the source node's row along every edge, sum the rows arriving at each node, and
  average by the in-degree clamped from below by one; apply a dense layer (aggregate times one weight
  plus the node's own row times another, plus a bias, rectified); do the same again on the hidden
  layer; average the second hidden layer over each graph's nodes (the node count clamped from below by
  one); and apply the head. They differ in two ways only.

  The kernel computes each dense layer in ten blocks of 2000 rows, the reference in one product. An
  entry of the layer depends on one row of the inputs and one column of the weights, so each block of
  the result is that block of the whole layer, and the ten blocks cover all the rows.

  The kernel multiplies each sum by the RECIPROCAL of the clamped count, computed once; the reference
  DIVIDES by the clamped count. A count clamped from below by one is not zero, division by a non-zero
  extended real is the product with its inverse, and the reciprocal is that inverse: the two are one
  function, whatever the sum is — nothing needs to be finite.

  So both programs end with the same function of the thirteen argument arrays (`Cert.Pieces.result`).
  The idealization rewrote no operation, so there is nothing to preserve; the three programs' frames
  are their runs with the result dropped.
-/
import proofs.«173368_j4801773437763_1_alg».proof.Defs
import proofs.«173368_j4801773437763_1_alg».proof.Proof.Gen.Kernel
import proofs.«173368_j4801773437763_1_alg».proof.Proof.Gen.Kernel.Skeleton
import proofs.«173368_j4801773437763_1_alg».proof.Proof.Gen.Kernel.Launch
import proofs.«173368_j4801773437763_1_alg».proof.Proof.Gen.Kernel.Points
import proofs.«173368_j4801773437763_1_alg».proof.Proof.Gen.Kernel.Frame
import proofs.«173368_j4801773437763_1_alg».proof.Proof.Gen.KernelIdeal
import proofs.«173368_j4801773437763_1_alg».proof.Proof.Gen.KernelIdeal.Skeleton
import proofs.«173368_j4801773437763_1_alg».proof.Proof.Gen.KernelIdeal.Launch
import proofs.«173368_j4801773437763_1_alg».proof.Proof.Gen.KernelIdeal.Points
import proofs.«173368_j4801773437763_1_alg».proof.Proof.Gen.KernelIdeal.Frame
import proofs.«173368_j4801773437763_1_alg».proof.Proof.Gen.ReferenceIdeal
import proofs.«173368_j4801773437763_1_alg».proof.Proof.Gen.Pre_finite_inputs
import proofs.«173368_j4801773437763_1_alg».proof.Proof.Gen.ReferenceIdeal.Run
import proofs.«173368_j4801773437763_1_alg».proof.Proof.KernelRun
import proofs.«173368_j4801773437763_1_alg».proof.Proof.KernelFold
import proofs.«173368_j4801773437763_1_alg».proof.Proof.Region0
import proofs.«173368_j4801773437763_1_alg».proof.Proof.Region1
import proofs.«173368_j4801773437763_1_alg».proof.Proof.RefValue
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_kernel : Cert.frame_Kernel := fun m ρ _ => Cert.Kernel.Gen.frame m ρ
/-- So does its idealization. -/
theorem frame_kernelIdeal : Cert.frame_KernelIdeal := fun m ρ _ => Cert.KernelIdeal.Gen.frame m ρ
/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the network's value of those
    arguments: the kernel by its run read back through its segments (the regions' arrays as dense layers,
    the reciprocal scalings as divisions), the reference by its run's composed term. -/
theorem algebraic : Cert.algebraic_KernelIdeal_ReferenceIdeal := by
  intro m ρ m' ρ' _ hagree
  refine ⟨fun c => Cert.Pieces.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun _ h c => ⟨(h c).1.trans ?_, (h c).2⟩)
      (Cert.KernelIdeal.WholeRun.run_result (F := Ideal) m ρ)
    have h1 := Cert.KernelIdeal.Fold.hidden1_eq m ρ c (Cert.KernelIdeal.Region0.array_eq (Cert.KernelIdeal.Gen.V1 m ρ) c)
    have h2 := Cert.KernelIdeal.Fold.hidden2_eq m ρ c h1 (Cert.KernelIdeal.Region1.array_eq (Cert.KernelIdeal.Gen.V3 m ρ) c)
    exact Cert.KernelIdeal.Fold.result_eq m ρ c h2
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12⟩ := hagree c
    rw [Cert.ReferenceIdeal.RefValue.result_eq, a0, a1, a2, a3, a4, a5, a6, a7, a8, a9, a10, a11, a12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
